-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128x128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩

abbrev nBuf : Space → Nat
  | .hbm => 113
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S100000, .i32⟩
  | .hbm, ⟨15, _⟩ => ⟨S1700000, .i32⟩
  | .hbm, ⟨16, _⟩ => ⟨S_, .f32⟩
  | .hbm, ⟨17, _⟩ => ⟨S100000, .f32⟩
  | .hbm, ⟨18, _⟩ => ⟨S_, .i32⟩
  | .hbm, ⟨19, _⟩ => ⟨S1700000, .i32⟩
  | .hbm, ⟨20, _⟩ => ⟨S1700000, .i1⟩
  | .hbm, ⟨21, _⟩ => ⟨S_, .i32⟩
  | .hbm, ⟨22, _⟩ => ⟨S1700000, .i32⟩
  | .hbm, ⟨23, _⟩ => ⟨S1700000, .i32⟩
  | .hbm, ⟨24, _⟩ => ⟨S1700000, .i32⟩
  | .hbm, ⟨25, _⟩ => ⟨S1700000x1, .i32⟩
  | .hbm, ⟨26, _⟩ => ⟨S_, .f32⟩
  | .hbm, ⟨27, _⟩ => ⟨S1700000, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .i1⟩
  | .hbm, ⟨32, _⟩ => ⟨S100000, .f32⟩
  | .hbm, ⟨33, _⟩ => ⟨S_, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000, .f32⟩
  | .hbm, ⟨55, _⟩ => ⟨S1700000, .f32⟩
  | .hbm, ⟨56, _⟩ => ⟨S100000x128, .f32⟩
  | .hbm, ⟨57, _⟩ => ⟨S_, .i32⟩
  | .hbm, ⟨58, _⟩ => ⟨S1700000, .i32⟩
  | .hbm, ⟨59, _⟩ => ⟨S1700000, .i1⟩
  | .hbm, ⟨60, _⟩ => ⟨S_, .i32⟩
  | .hbm, ⟨61, _⟩ => ⟨S1700000, .i32⟩
  | .hbm, ⟨62, _⟩ => ⟨S1700000, .i32⟩
  | .hbm, ⟨63, _⟩ => ⟨S1700000, .i32⟩
  | .hbm, ⟨64, _⟩ => ⟨S1700000x1, .i32⟩
  | .hbm, ⟨65, _⟩ => ⟨S1700000x128, .f32⟩
  | .hbm, ⟨66, _⟩ => ⟨S1700000x1, .f32⟩
  | .hbm, ⟨67, _⟩ => ⟨S1700000x128, .f32⟩
  | .hbm, ⟨68, _⟩ => ⟨S1700000x128, .f32⟩
  | .hbm, ⟨69, _⟩ => ⟨S_, .f32⟩
  | .hbm, ⟨70, _⟩ => ⟨S100000x128, .f32⟩
  | .hbm, ⟨71, _⟩ => ⟨S1700000x1, .i32⟩
  | .hbm, ⟨72, _⟩ => ⟨S100000x128, .f32⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S_, .i32⟩
  | .hbm, ⟨77, _⟩ => ⟨S1700000, .i32⟩
  | .hbm, ⟨78, _⟩ => ⟨S1700000, .i1⟩
  | .hbm, ⟨79, _⟩ => ⟨S_, .i32⟩
  | .hbm, ⟨80, _⟩ => ⟨S1700000, .i32⟩
  | .hbm, ⟨81, _⟩ => ⟨S1700000, .i32⟩
  | .hbm, ⟨82, _⟩ => ⟨S1700000, .i32⟩
  | .hbm, ⟨83, _⟩ => ⟨S1700000x1, .i32⟩
  | .hbm, ⟨84, _⟩ => ⟨S1700000x128, .f32⟩
  | .hbm, ⟨85, _⟩ => ⟨S1700000x1, .f32⟩
  | .hbm, ⟨86, _⟩ => ⟨S1700000x128, .f32⟩
  | .hbm, ⟨87, _⟩ => ⟨S1700000x128, .f32⟩
  | .hbm, ⟨88, _⟩ => ⟨S_, .f32⟩
  | .hbm, ⟨89, _⟩ => ⟨S100000x128, .f32⟩
  | .hbm, ⟨90, _⟩ => ⟨S1700000x1, .i32⟩
  | .hbm, ⟨91, _⟩ => ⟨S100000x128, .f32⟩
  | .hbm, ⟨92, _⟩ => ⟨S1x128, .f32⟩
  | .hbm, ⟨93, _⟩ => ⟨S100000x128, .f32⟩
  | .hbm, ⟨94, _⟩ => ⟨S100000x128, .f32⟩
  | .hbm, ⟨95, _⟩ => ⟨S_, .i32⟩
  | .hbm, ⟨96, _⟩ => ⟨S1700000, .i32⟩
  | .hbm, ⟨97, _⟩ => ⟨S1700000, .i1⟩
  | .hbm, ⟨98, _⟩ => ⟨S_, .i32⟩
  | .hbm, ⟨99, _⟩ => ⟨S1700000, .i32⟩
  | .hbm, ⟨100, _⟩ => ⟨S1700000, .i32⟩
  | .hbm, ⟨101, _⟩ => ⟨S1700000, .i32⟩
  | .hbm, ⟨102, _⟩ => ⟨S1700000x1, .i32⟩
  | .hbm, ⟨103, _⟩ => ⟨S1700000x128, .f32⟩
  | .hbm, ⟨104, _⟩ => ⟨S1700000x1, .f32⟩
  | .hbm, ⟨105, _⟩ => ⟨S1700000x128, .f32⟩
  | .hbm, ⟨106, _⟩ => ⟨S1700000x128, .f32⟩
  | .hbm, ⟨107, _⟩ => ⟨S_, .f32⟩
  | .hbm, ⟨108, _⟩ => ⟨S100000x128, .f32⟩
  | .hbm, ⟨109, _⟩ => ⟨S1700000x1, .i32⟩
  | .hbm, ⟨110, _⟩ => ⟨S100000x128, .f32⟩
  | .hbm, ⟨111, _⟩ => ⟨S1x128, .f32⟩
  | .hbm, ⟨112, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_c_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_6 : Ref sig .tc := ⟨.hbm, 46, rfl⟩
abbrev main_v28 : Ref sig .tc := ⟨.hbm, 47, rfl⟩
abbrev main_v29 : Ref sig .tc := ⟨.hbm, 48, rfl⟩
abbrev main_c_7 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_8 : Ref sig .tc := ⟨.hbm, 57, rfl⟩
abbrev main_v37 : Ref sig .tc := ⟨.hbm, 58, rfl⟩
abbrev main_v38 : Ref sig .tc := ⟨.hbm, 59, rfl⟩
abbrev main_c_9 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_10 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_c_12 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_13 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_c_14 : Ref sig .tc := ⟨.hbm, 95, rfl⟩
abbrev main_v69 : Ref sig .tc := ⟨.hbm, 96, rfl⟩
abbrev main_v70 : Ref sig .tc := ⟨.hbm, 97, rfl⟩
abbrev main_c_15 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_16 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S100000x128.size a
  hwx5_2 : ∀ i : grid5.Coords, EltTy.bits .f32 = 32 ∨ (Rect.block (s := S100000x128) S5000x128.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v51) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v65) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v66) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v67) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v67) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v68) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v81) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v82) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v83) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 122
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S100000, .i32⟩
  | .hbm, ⟨15, _⟩ => ⟨S1700000, .i32⟩
  | .hbm, ⟨16, _⟩ => ⟨S_, .f32⟩
  | .hbm, ⟨17, _⟩ => ⟨S100000, .f32⟩
  | .hbm, ⟨18, _⟩ => ⟨S_, .i32⟩
  | .hbm, ⟨19, _⟩ => ⟨S1700000, .i32⟩
  | .hbm, ⟨20, _⟩ => ⟨S1700000, .i1⟩
  | .hbm, ⟨21, _⟩ => ⟨S_, .i32⟩
  | .hbm, ⟨22, _⟩ => ⟨S1700000, .i32⟩
  | .hbm, ⟨23, _⟩ => ⟨S1700000, .i32⟩
  | .hbm, ⟨24, _⟩ => ⟨S1700000, .i32⟩
  | .hbm, ⟨25, _⟩ => ⟨S1700000x1, .i32⟩
  | .hbm, ⟨26, _⟩ => ⟨S_, .f32⟩
  | .hbm, ⟨27, _⟩ => ⟨S1700000, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .i1⟩
  | .hbm, ⟨32, _⟩ => ⟨S100000, .f32⟩
  | .hbm, ⟨33, _⟩ => ⟨S_, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000, .f32⟩
  | .hbm, ⟨55, _⟩ => ⟨S1700000, .f32⟩
  | .hbm, ⟨56, _⟩ => ⟨S100000x128, .f32⟩
  | .hbm, ⟨57, _⟩ => ⟨S_, .i32⟩
  | .hbm, ⟨58, _⟩ => ⟨S1700000, .i32⟩
  | .hbm, ⟨59, _⟩ => ⟨S1700000, .i1⟩
  | .hbm, ⟨60, _⟩ => ⟨S_, .i32⟩
  | .hbm, ⟨61, _⟩ => ⟨S1700000, .i32⟩
  | .hbm, ⟨62, _⟩ => ⟨S1700000, .i32⟩
  | .hbm, ⟨63, _⟩ => ⟨S1700000, .i32⟩
  | .hbm, ⟨64, _⟩ => ⟨S1700000x1, .i32⟩
  | .hbm, ⟨65, _⟩ => ⟨S1700000x128, .f32⟩
  | .hbm, ⟨66, _⟩ => ⟨S1700000x1, .f32⟩
  | .hbm, ⟨67, _⟩ => ⟨S1700000x128, .f32⟩
  | .hbm, ⟨68, _⟩ => ⟨S1700000x128, .f32⟩
  | .hbm, ⟨69, _⟩ => ⟨S_, .f32⟩
  | .hbm, ⟨70, _⟩ => ⟨S100000x128, .f32⟩
  | .hbm, ⟨71, _⟩ => ⟨S1700000x1, .i32⟩
  | .hbm, ⟨72, _⟩ => ⟨S100000x128, .f32⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S_, .f32⟩
  | .hbm, ⟨77, _⟩ => ⟨S100000x128, .f32⟩
  | .hbm, ⟨78, _⟩ => ⟨S100000x128, .f32⟩
  | .hbm, ⟨79, _⟩ => ⟨S100000x128, .f32⟩
  | .hbm, ⟨80, _⟩ => ⟨S_, .i32⟩
  | .hbm, ⟨81, _⟩ => ⟨S1700000, .i32⟩
  | .hbm, ⟨82, _⟩ => ⟨S1700000, .i1⟩
  | .hbm, ⟨83, _⟩ => ⟨S_, .i32⟩
  | .hbm, ⟨84, _⟩ => ⟨S1700000, .i32⟩
  | .hbm, ⟨85, _⟩ => ⟨S1700000, .i32⟩
  | .hbm, ⟨86, _⟩ => ⟨S1700000, .i32⟩
  | .hbm, ⟨87, _⟩ => ⟨S1700000x1, .i32⟩
  | .hbm, ⟨88, _⟩ => ⟨S1700000x128, .f32⟩
  | .hbm, ⟨89, _⟩ => ⟨S1700000x1, .f32⟩
  | .hbm, ⟨90, _⟩ => ⟨S1700000x128, .f32⟩
  | .hbm, ⟨91, _⟩ => ⟨S1700000x128, .f32⟩
  | .hbm, ⟨92, _⟩ => ⟨S_, .f32⟩
  | .hbm, ⟨93, _⟩ => ⟨S100000x128, .f32⟩
  | .hbm, ⟨94, _⟩ => ⟨S1700000x1, .i32⟩
  | .hbm, ⟨95, _⟩ => ⟨S100000x128, .f32⟩
  | .hbm, ⟨96, _⟩ => ⟨S1x128, .f32⟩
  | .hbm, ⟨97, _⟩ => ⟨S100000x128, .f32⟩
  | .hbm, ⟨98, _⟩ => ⟨S100000x128, .f32⟩
  | .hbm, ⟨99, _⟩ => ⟨S_, .f32⟩
  | .hbm, ⟨100, _⟩ => ⟨S100000x128, .f32⟩
  | .hbm, ⟨101, _⟩ => ⟨S100000x128, .f32⟩
  | .hbm, ⟨102, _⟩ => ⟨S100000x128, .f32⟩
  | .hbm, ⟨103, _⟩ => ⟨S_, .i32⟩
  | .hbm, ⟨104, _⟩ => ⟨S1700000, .i32⟩
  | .hbm, ⟨105, _⟩ => ⟨S1700000, .i1⟩
  | .hbm, ⟨106, _⟩ => ⟨S_, .i32⟩
  | .hbm, ⟨107, _⟩ => ⟨S1700000, .i32⟩
  | .hbm, ⟨108, _⟩ => ⟨S1700000, .i32⟩
  | .hbm, ⟨109, _⟩ => ⟨S1700000, .i32⟩
  | .hbm, ⟨110, _⟩ => ⟨S1700000x1, .i32⟩
  | .hbm, ⟨111, _⟩ => ⟨S1700000x128, .f32⟩
  | .hbm, ⟨112, _⟩ => ⟨S1700000x1, .f32⟩
  | .hbm, ⟨113, _⟩ => ⟨S1700000x128, .f32⟩
  | .hbm, ⟨114, _⟩ => ⟨S1700000x128, .f32⟩
  | .hbm, ⟨115, _⟩ => ⟨S_, .f32⟩
  | .hbm, ⟨116, _⟩ => ⟨S100000x128, .f32⟩
  | .hbm, ⟨117, _⟩ => ⟨S1700000x1, .i32⟩
  | .hbm, ⟨118, _⟩ => ⟨S100000x128, .f32⟩
  | .hbm, ⟨119, _⟩ => ⟨S1x128, .f32⟩
  | .hbm, ⟨120, _⟩ => ⟨S100000x128, .f32⟩
  | .hbm, ⟨121, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_c_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_6 : Ref sig .tc := ⟨.hbm, 46, rfl⟩
abbrev main_v28 : Ref sig .tc := ⟨.hbm, 47, rfl⟩
abbrev main_v29 : Ref sig .tc := ⟨.hbm, 48, rfl⟩
abbrev main_c_7 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_8 : Ref sig .tc := ⟨.hbm, 57, rfl⟩
abbrev main_v37 : Ref sig .tc := ⟨.hbm, 58, rfl⟩
abbrev main_v38 : Ref sig .tc := ⟨.hbm, 59, rfl⟩
abbrev main_c_9 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_10 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_call1_cst : Ref sig .tc := ⟨.hbm, 76, rfl⟩
abbrev main_call1_v0 : Ref sig .tc := ⟨.hbm, 77, rfl⟩
abbrev main_v53 : Ref sig .tc := ⟨.hbm, 78, rfl⟩
abbrev main_v54 : Ref sig .tc := ⟨.hbm, 79, rfl⟩
abbrev main_c_11 : Ref sig .tc := ⟨.hbm, 80, rfl⟩
abbrev main_v55 : Ref sig .tc := ⟨.hbm, 81, rfl⟩
abbrev main_v56 : Ref sig .tc := ⟨.hbm, 82, rfl⟩
abbrev main_c_12 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_13 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_call2_cst : Ref sig .tc := ⟨.hbm, 99, rfl⟩
abbrev main_call2_v0 : Ref sig .tc := ⟨.hbm, 100, rfl⟩
abbrev main_v71 : Ref sig .tc := ⟨.hbm, 101, rfl⟩
abbrev main_v72 : Ref sig .tc := ⟨.hbm, 102, rfl⟩
abbrev main_c_14 : Ref sig .tc := ⟨.hbm, 103, rfl⟩
abbrev main_v73 : Ref sig .tc := ⟨.hbm, 104, rfl⟩
abbrev main_v74 : Ref sig .tc := ⟨.hbm, 105, rfl⟩
abbrev main_c_15 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_16 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KRun.lean ====
/-
  The whole program's run with its result named. The program is twelve segments: stretches of host
  operations and six kernel launches. The buffer contents at each segment boundary are a fold from the launch
  memory (a host stretch applies its operations; a launch leaves its arrays at what its write-backs produce
  and every other buffer as entered). Every weakly fair execution terminates without a fault, the result
  buffer then holds the last boundary's contents at that buffer, and the argument arrays are as launched.
-/
import proofs.«176715_j7069516169832_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v83) = W12 m ρ c (Proc.devRef .tc main_v83)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v83 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.Whole

end
-- ==== Proof.MatmulBlock.lean ====
/-
  One grid point of the dense transform: the body loads a block of 5000 rows of the activations and the whole
  128 x 128 weight matrix, changes both to the narrow float format (the identity on extended reals) and multiplies
  them into a zero accumulator. Read at one entry (p, q) of the block this is the plain sum over the
  contracted axis, sum over k of x(p, k) * w(k, q): the zero accumulator contributes nothing, and the
  contraction's one axis is re-indexed by its single coordinate.
-/
import proofs.«176715_j7069516169832_1_alg».proof.Proof.Gen.KernelIdeal.Skeleton
import Idealize.ShloMosaic.Lib.ValueIdx
import Idealize.ShloMosaic.PureOps.Ideal.Laws
import Idealize.ShloMosaic.Lib.Pipeline.Value

noncomputable section

open scoped BigOperators

namespace Cert.KernelIdeal.Blocks

open Cert.KernelIdeal Cert.KernelIdeal.Gen Idealize.ShloMosaic Idealize.ShloMosaic.ValueIdx

/-- The left operand's row coordinate is the result's row. -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column coordinate is the contracted one. -/
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row coordinate is the contracted one. -/
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column coordinate is the result's column. -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product of a row block with the weights into a zero accumulator, at entry (p, q): the sum over k of
    x(p, k) * w(k, q). -/
theorem rows_times_apply (x : FVec Ideal S5000x128 .bf16) (w : FVec Ideal S128x128 .bf16) (p : Fin 5000) (q : Fin 128) :
    FloatOps.matmul dot_S5000x128_S128x128_S5000x128_1_0_0_1_n_n none x w (constant S5000x128 .f32 0x00000000#32) (ix2 p q)
      = ∑ k : Fin 128, x (ix2 p k) * w (ix2 k q) := by
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- What the first transform's body stores at entry (p, q) of its block. -/
theorem transform0_apply (x : Vec Ideal S5000x128 .f32) (w : Vec Ideal S128x128 .f32) (p : Fin 5000) (q : Fin 128) :
    k0_pay1 (F := Ideal) x w (ix2 p q) = ∑ k : Fin 128, x (ix2 p k) * w (ix2 k q) :=
  rows_times_apply x w p q
/-- The second transform's body first casts the block's shape to itself; then it is the same product. -/
theorem transform2_apply (x : Vec Ideal S5000x128 .f32) (w : Vec Ideal S128x128 .f32) (p : Fin 5000) (q : Fin 128) :
    k2_pay1 (F := Ideal) x w (ix2 p q) = ∑ k : Fin 128, x (ix2 p k) * w (ix2 k q) := by
  have e : shapeCast S5000x128 x shapeCasts_S5000x128_S5000x128 = x := shapeCast_self x _
  unfold k2_pay1
  rw [e]
  exact rows_times_apply x w p q
/-- The third transform's body likewise. -/
theorem transform4_apply (x : Vec Ideal S5000x128 .f32) (w : Vec Ideal S128x128 .f32) (p : Fin 5000) (q : Fin 128) :
    k4_pay1 (F := Ideal) x w (ix2 p q) = ∑ k : Fin 128, x (ix2 p k) * w (ix2 k q) := by
  have e : shapeCast S5000x128 x shapeCasts_S5000x128_S5000x128 = x := shapeCast_self x _
  unfold k4_pay1
  rw [e]
  exact rows_times_apply x w p q

end Cert.KernelIdeal.Blocks

end
-- ==== Proof.Layer.lean ====
/-
  The two dense stages of one graph-convolution layer as whole-array functions over the extended reals.
  The transform of an array x of 100000 rows by a 128 x 128 matrix w has entry (r, q) equal to the sum over k of
  x(r, k) * w(k, q). The bias stage adds to every row of an array the one row of a 1 x 128 bias, and in the two inner
  layers takes the maximum with zero. Indices are written coordinate by coordinate over the literal shapes.
-/
import Idealize.ShloMosaic.Lib.ValueIdx

noncomputable section

open scoped BigOperators

namespace Cert.Layer

open Idealize.ShloMosaic

/-- Activations: 100000 nodes by 128 features. -/
abbrev Acts : Shape := ⟨2, ![100000, 128]⟩
/-- A weight matrix. -/
abbrev Wts : Shape := ⟨2, ![128, 128]⟩
/-- A bias as one row. -/
abbrev Row : Shape := ⟨2, ![1, 128]⟩

/-- Entry k of the row of x that entry i of the product reads. -/
abbrev lhsAt (i : Acts.Idx) (k : Fin 128) : Acts.Idx := fun a => match a with
  | ⟨0, _⟩ => ⟨(i 0).val, (i 0).isLt⟩
  | ⟨1, _⟩ => ⟨k.val, k.isLt⟩
/-- Entry k of the column of w that entry i of the product reads. -/
abbrev rhsAt (i : Acts.Idx) (k : Fin 128) : Wts.Idx := fun a => match a with
  | ⟨0, _⟩ => ⟨k.val, k.isLt⟩
  | ⟨1, _⟩ => ⟨(i 1).val, (i 1).isLt⟩
/-- The bias entry that entry i reads: the one row, i's column. -/
abbrev rowAt (i : Acts.Idx) : Row.Idx := fun a => match a with
  | ⟨0, _⟩ => ⟨0, Nat.one_pos⟩
  | ⟨1, _⟩ => ⟨(i 1).val, (i 1).isLt⟩

/-- The dense transform x w. -/
def transform (x : FVec Ideal Acts .f32) (w : FVec Ideal Wts .f32) : FVec Ideal Acts .f32 :=
  fun i => ∑ k : Fin 128, x (lhsAt i k) * w (rhsAt i k)

/-- Bias, then the maximum with zero. -/
def biasRelu (a : FVec Ideal Acts .f32) (b : FVec Ideal Row .f32) : FVec Ideal Acts .f32 :=
  fun i => FloatOps.maximumf (FloatOps.addf (a i) (b (rowAt i))) (FloatOps.ofBits .f32 0x00000000#32)

/-- Bias alone. -/
def bias (a : FVec Ideal Acts .f32) (b : FVec Ideal Row .f32) : FVec Ideal Acts .f32 :=
  fun i => FloatOps.addf (a i) (b (rowAt i))

end Cert.Layer

end
-- ==== Proof.Transform0.lean ====
/-
  Launch 0 is a dense transform tiled over 20 grid points. Point t stages rows 5000 t … 5000 t + 4999 of the
  activations and the whole weight matrix, and writes back the same rows of the result. What point t writes back is
  block t of the whole-array transform of the arrays as the launch finds them (a block's coordinate is block index
  times block size plus the coordinate inside the block); the 20 row blocks cover the result array (row r lies in
  block r / 5000), so after the launch the result array IS the transform.
-/
import proofs.«176715_j7069516169832_1_alg».proof.Proof.Gen.KernelIdeal.Frame
import proofs.«176715_j7069516169832_1_alg».proof.Proof.MatmulBlock
import proofs.«176715_j7069516169832_1_alg».proof.Proof.Layer
import Idealize.ShloMosaic.Lib.Pipeline.Value

set_option maxRecDepth 16384

noncomputable section

open scoped BigOperators

namespace Cert.KernelIdeal.Transform0

open Cert.KernelIdeal Cert.KernelIdeal.Gen Cert.KernelIdeal.Blocks Cert.Layer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the activations' and the result's block index is the point itself on the
    row axis and 0 on the column axis; the weights' block is always block (0, 0). -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every one of the 20 row blocks is some point's. -/
theorem index_onto : ∀ q0 : Fin 20, ∃ t : Fin cfg0.N, win0_2.index t (0 : Fin 2) = q0.val ∧ win0_2.index t (1 : Fin 2) = 0 :=
  (by decide +kernel : ∀ q0 : Fin 20, ∃ t : Fin grid0.N, win0_2.index t (0 : Fin 2) = q0.val ∧ win0_2.index t (1 : Fin 2) = 0)

/-- A block's products, summed, are the whole-array transform at the block's entry: the activations' block reads the
    same rows as the result's block, and the weights' one block is the whole matrix. -/
theorem block_eq (X : FVec Ideal S100000x128 .f32) (Wm : FVec Ideal S128x128 .f32) (t : Fin cfg0.N) (p : Fin 5000) (q : Fin 128) :
    ∑ k : Fin 128, X (((cfg0.win 0).blk t).view.emb (ix2 p k)) * Wm (((cfg0.win 1).blk t).view.emb (ix2 k q))
      = transform X Wm (((cfg0.win 2).blk t).view.emb (ix2 p q)) := by
  obtain ⟨e0, e1, e2, e3, e4, e5⟩ := index_maps t
  unfold transform
  refine Finset.sum_congr rfl fun k _ => ?_
  have hx : ((cfg0.win 0).blk t).view.emb (ix2 p k) = lhsAt (((cfg0.win 2).blk t).view.emb (ix2 p q)) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have hw : ((cfg0.win 1).blk t).view.emb (ix2 k q) = rhsAt (((cfg0.win 2).blk t).view.emb (ix2 p q)) k := by
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  rw [hx, hw]

/-- What point t writes back is block t of the transform of the arrays as the launch finds them. -/
theorem flushed_eq (c : Dev nD) (t : Fin cfg0.N) :
    (dat0 V c).flushed 2 t = ((cfg0.win 2).blk t).view.read (Elt Ideal) (transform (V c main_arg0) (V c main_arg2)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x128) zero_offsets]
  funext j
  obtain ⟨p, q, rfl⟩ : ∃ (p : Fin 5000) (q : Fin 128), j = ix2 p q := ⟨j 0, j 1, eq_ix2 j⟩
  refine (transform0_apply (iblk0 V c 0 t) (iblk0 V c 1 t) p q).trans ?_
  exact block_eq (V c main_arg0) (V c main_arg2) t p q

/-- An index of the result array is in point t's block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v36).slice (win0_2.rect t)).set ↔ _
  rw [View.set_slice_whole, Rect.mem_set_unit]
  exact Iff.rfl

/-- Every index of the result array lies in the block of the point its row falls in. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht0, ht1⟩ := index_onto ⟨(i 0).val / 5000, by omega⟩
  have q0 : win0_2.index t (0 : Fin 2) = (i 0).val / 5000 := ht0
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the launch the result array is the transform of the arrays the launch found. -/
theorem final (c : Dev nD) : (dat0 V c).arrAt 2 cfg0.N = transform (V c main_arg0) (V c main_arg2) :=
  (dat0 V c).arrAt_eq_of_cover 2 (transform (V c main_arg0) (V c main_arg2)) (fun t _ => flushed_eq V c t) (cover)

end Cert.KernelIdeal.Transform0

end
-- ==== Proof.Transform2.lean ====
/-
  Launch 2 is a dense transform tiled over 20 grid points. Point t stages rows 5000 t … 5000 t + 4999 of the
  activations and the whole weight matrix, and writes back the same rows of the result. What point t writes back is
  block t of the whole-array transform of the arrays as the launch finds them (a block's coordinate is block index
  times block size plus the coordinate inside the block); the 20 row blocks cover the result array (row r lies in
  block r / 5000), so after the launch the result array IS the transform.
-/
import proofs.«176715_j7069516169832_1_alg».proof.Proof.Gen.KernelIdeal.Frame
import proofs.«176715_j7069516169832_1_alg».proof.Proof.MatmulBlock
import proofs.«176715_j7069516169832_1_alg».proof.Proof.Layer
import Idealize.ShloMosaic.Lib.Pipeline.Value

set_option maxRecDepth 16384

noncomputable section

open scoped BigOperators

namespace Cert.KernelIdeal.Transform2

open Cert.KernelIdeal Cert.KernelIdeal.Gen Cert.KernelIdeal.Blocks Cert.Layer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the activations' and the result's block index is the point itself on the
    row axis and 0 on the column axis; the weights' block is always block (0, 0). -/
theorem index_maps : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Every one of the 20 row blocks is some point's. -/
theorem index_onto : ∀ q0 : Fin 20, ∃ t : Fin cfg2.N, win2_2.index t (0 : Fin 2) = q0.val ∧ win2_2.index t (1 : Fin 2) = 0 :=
  (by decide +kernel : ∀ q0 : Fin 20, ∃ t : Fin grid2.N, win2_2.index t (0 : Fin 2) = q0.val ∧ win2_2.index t (1 : Fin 2) = 0)

/-- A block's products, summed, are the whole-array transform at the block's entry: the activations' block reads the
    same rows as the result's block, and the weights' one block is the whole matrix. -/
theorem block_eq (X : FVec Ideal S100000x128 .f32) (Wm : FVec Ideal S128x128 .f32) (t : Fin cfg2.N) (p : Fin 5000) (q : Fin 128) :
    ∑ k : Fin 128, X (((cfg2.win 0).blk t).view.emb (ix2 p k)) * Wm (((cfg2.win 1).blk t).view.emb (ix2 k q))
      = transform X Wm (((cfg2.win 2).blk t).view.emb (ix2 p q)) := by
  obtain ⟨e0, e1, e2, e3, e4, e5⟩ := index_maps t
  unfold transform
  refine Finset.sum_congr rfl fun k _ => ?_
  have hx : ((cfg2.win 0).blk t).view.emb (ix2 p k) = lhsAt (((cfg2.win 2).blk t).view.emb (ix2 p q)) k := by
    funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 128 + 1 * k.val = k.val; omega
  have hw : ((cfg2.win 1).blk t).view.emb (ix2 k q) = rhsAt (((cfg2.win 2).blk t).view.emb (ix2 p q)) k := by
    funext a; apply Fin.ext
    match a with
    | ⟨0, _⟩ => show win2_1.index t (0 : Fin 2) * 128 + 1 * k.val = k.val; omega
    | ⟨1, _⟩ => show win2_1.index t (1 : Fin 2) * 128 + 1 * q.val = win2_2.index t (1 : Fin 2) * 128 + 1 * q.val; omega
  rw [hx, hw]

/-- What point t writes back is block t of the transform of the arrays as the launch finds them. -/
theorem flushed_eq (c : Dev nD) (t : Fin cfg2.N) :
    (dat2 V c).flushed 2 t = ((cfg2.win 2).blk t).view.read (Elt Ideal) (transform (V c main_v51) (V c main_arg4)) := by
  show (cfg2.win 2).cut (grid2.coords t) ((dat2 V c).after 2 t) = _
  rw [after2_2]
  unfold out2_2
  rw [View.canon_unit_zero zero_offsets]
  simp only [View.ld_unit_zero (S := S5000x128) zero_offsets, View.ld_unit_zero (S := S128x128) zero_offsets]
  funext j
  obtain ⟨p, q, rfl⟩ : ∃ (p : Fin 5000) (q : Fin 128), j = ix2 p q := ⟨j 0, j 1, eq_ix2 j⟩
  refine (transform2_apply (iblk2 V c 0 t) (iblk2 V c 1 t) p q).trans ?_
  exact block_eq (V c main_v51) (V c main_arg4) t p q

/-- An index of the result array is in point t's block iff each coordinate is in the block's range on its axis. -/
theorem mem_blk (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v52).slice (win2_2.rect t)).set ↔ _
  rw [View.set_slice_whole, Rect.mem_set_unit]
  exact Iff.rfl

/-- Every index of the result array lies in the block of the point its row falls in. -/
theorem cover (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht0, ht1⟩ := index_onto ⟨(i 0).val / 5000, by omega⟩
  have q0 : win2_2.index t (0 : Fin 2) = (i 0).val / 5000 := ht0
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- After the launch the result array is the transform of the arrays the launch found. -/
theorem final (c : Dev nD) : (dat2 V c).arrAt 2 cfg2.N = transform (V c main_v51) (V c main_arg4) :=
  (dat2 V c).arrAt_eq_of_cover 2 (transform (V c main_v51) (V c main_arg4)) (fun t _ => flushed_eq V c t) (cover)

end Cert.KernelIdeal.Transform2

end
-- ==== Proof.Transform4.lean ====
/-
  Launch 4 is a dense transform tiled over 20 grid points. Point t stages rows 5000 t … 5000 t + 4999 of the
  activations and the whole weight matrix, and writes back the same rows of the result. What point t writes back is
  block t of the whole-array transform of the arrays as the launch finds them (a block's coordinate is block index
  times block size plus the coordinate inside the block); the 20 row blocks cover the result array (row r lies in
  block r / 5000), so after the launch the result array IS the transform.
-/
import proofs.«176715_j7069516169832_1_alg».proof.Proof.Gen.KernelIdeal.Frame
import proofs.«176715_j7069516169832_1_alg».proof.Proof.MatmulBlock
import proofs.«176715_j7069516169832_1_alg».proof.Proof.Layer
import Idealize.ShloMosaic.Lib.Pipeline.Value

set_option maxRecDepth 16384

noncomputable section

open scoped BigOperators

namespace Cert.KernelIdeal.Transform4

open Cert.KernelIdeal Cert.KernelIdeal.Gen Cert.KernelIdeal.Blocks Cert.Layer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the activations' and the result's block index is the point itself on the
    row axis and 0 on the column axis; the weights' block is always block (0, 0). -/
theorem index_maps : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Every one of the 20 row blocks is some point's. -/
theorem index_onto : ∀ q0 : Fin 20, ∃ t : Fin cfg4.N, win4_2.index t (0 : Fin 2) = q0.val ∧ win4_2.index t (1 : Fin 2) = 0 :=
  (by decide +kernel : ∀ q0 : Fin 20, ∃ t : Fin grid4.N, win4_2.index t (0 : Fin 2) = q0.val ∧ win4_2.index t (1 : Fin 2) = 0)

/-- A block's products, summed, are the whole-array transform at the block's entry: the activations' block reads the
    same rows as the result's block, and the weights' one block is the whole matrix. -/
theorem block_eq (X : FVec Ideal S100000x128 .f32) (Wm : FVec Ideal S128x128 .f32) (t : Fin cfg4.N) (p : Fin 5000) (q : Fin 128) :
    ∑ k : Fin 128, X (((cfg4.win 0).blk t).view.emb (ix2 p k)) * Wm (((cfg4.win 1).blk t).view.emb (ix2 k q))
      = transform X Wm (((cfg4.win 2).blk t).view.emb (ix2 p q)) := by
  obtain ⟨e0, e1, e2, e3, e4, e5⟩ := index_maps t
  unfold transform
  refine Finset.sum_congr rfl fun k _ => ?_
  have hx : ((cfg4.win 0).blk t).view.emb (ix2 p k) = lhsAt (((cfg4.win 2).blk t).view.emb (ix2 p q)) k := by
    funext a; apply Fin.ext
    match a with
    | ⟨0, _⟩ => show win4_0.index t (0 : Fin 2) * 5000 + 1 * p.val = win4_2.index t (0 : Fin 2) * 5000 + 1 * p.val; omega
    | ⟨1, _⟩ => show win4_0.index t (1 : Fin 2) * 128 + 1 * k.val = k.val; omega
  have hw : ((cfg4.win 1).blk t).view.emb (ix2 k q) = rhsAt (((cfg4.win 2).blk t).view.emb (ix2 p q)) k := by
    funext a; apply Fin.ext
    match a with
    | ⟨0, _⟩ => show win4_1.index t (0 : Fin 2) * 128 + 1 * k.val = k.val; omega
    | ⟨1, _⟩ => show win4_1.index t (1 : Fin 2) * 128 + 1 * q.val = win4_2.index t (1 : Fin 2) * 128 + 1 * q.val; omega
  rw [hx, hw]

/-- What point t writes back is block t of the transform of the arrays as the launch finds them. -/
theorem flushed_eq (c : Dev nD) (t : Fin cfg4.N) :
    (dat4 V c).flushed 2 t = ((cfg4.win 2).blk t).view.read (Elt Ideal) (transform (V c main_v67) (V c main_arg6)) := by
  show (cfg4.win 2).cut (grid4.coords t) ((dat4 V c).after 2 t) = _
  rw [after4_2]
  unfold out4_2
  rw [View.canon_unit_zero zero_offsets]
  simp only [View.ld_unit_zero (S := S5000x128) zero_offsets, View.ld_unit_zero (S := S128x128) zero_offsets]
  funext j
  obtain ⟨p, q, rfl⟩ : ∃ (p : Fin 5000) (q : Fin 128), j = ix2 p q := ⟨j 0, j 1, eq_ix2 j⟩
  refine (transform4_apply (iblk4 V c 0 t) (iblk4 V c 1 t) p q).trans ?_
  exact block_eq (V c main_v67) (V c main_arg6) t p q

/-- An index of the result array is in point t's block iff each coordinate is in the block's range on its axis. -/
theorem mem_blk (t : Fin cfg4.N) (i : S100000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v68).slice (win4_2.rect t)).set ↔ _
  rw [View.set_slice_whole, Rect.mem_set_unit]
  exact Iff.rfl

/-- Every index of the result array lies in the block of the point its row falls in. -/
theorem cover (i : S100000x128.Idx) : ∃ t : Fin cfg4.N, (cfg4.win 2).flush t = true ∧ i ∈ ((cfg4.win 2).blk t).view.set := by
  have hi0 : (i 0).val < 100000 := (i 0).isLt
  have hi1 : (i 1).val < 128 := (i 1).isLt
  obtain ⟨t, ht0, ht1⟩ := index_onto ⟨(i 0).val / 5000, by omega⟩
  have q0 : win4_2.index t (0 : Fin 2) = (i 0).val / 5000 := ht0
  refine ⟨t, flush4_2 t, ?_⟩
  rw [mem_blk]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

/-- After the launch the result array is the transform of the arrays the launch found. -/
theorem final (c : Dev nD) : (dat4 V c).arrAt 2 cfg4.N = transform (V c main_v67) (V c main_arg6) :=
  (dat4 V c).arrAt_eq_of_cover 2 (transform (V c main_v67) (V c main_arg6)) (fun t _ => flushed_eq V c t) (cover)

end Cert.KernelIdeal.Transform4

end
-- ==== Proof.BiasBlock.lean ====
/-
  One grid point of the bias stage: the body loads a block of 5000 rows of the aggregated messages and the
  bias as a 1 x 128 row, repeats the row down the block, adds, and (in the two inner layers) takes the maximum
  with zero. Read at one entry (p, q): agg(p, q) + bias(0, q), then max with 0 where the layer has the
  activation. The two casts in the body are casts of a shape to itself.
-/
import proofs.«176715_j7069516169832_1_alg».proof.Proof.Gen.KernelIdeal.Skeleton
import Idealize.ShloMosaic.Lib.ValueIdx
import Idealize.ShloMosaic.Lib.Pipeline.Value

noncomputable section

namespace Cert.KernelIdeal.Blocks

open Cert.KernelIdeal Cert.KernelIdeal.Gen Idealize.ShloMosaic Idealize.ShloMosaic.ValueIdx

/-- The bias row repeated down a block, at (p, q), is the row's entry q. -/
theorem bias_row_apply (b : FVec Ideal S1x128 .f32) (p : Fin 5000) (q : Fin 128) :
    broadcastTo S5000x128 (shapeCast S1x128 b shapeCasts_S1x128_S1x128) broadcasts_S1x128_S5000x128 (ix2 p q)
      = b (ix2 0 q) := by
  rw [shapeCast_self]
  exact broadcastTo_apply b broadcasts_S1x128_S5000x128 (ix2 p q) (ix2 0 q) (fun a => by
    match a with
    | ⟨0, _⟩ => show 0 = if (1 : Nat) = 1 then 0 else _; rw [if_pos rfl]
    | ⟨1, _⟩ => show q.val = if (128 : Nat) = 1 then 0 else q.val; rw [if_neg (by decide)])

/-- Bias, then the activation: what the first bias stage stores at entry (p, q) of its block. -/
theorem bias_relu1_apply (x : FVec Ideal S5000x128 .f32) (b : FVec Ideal S1x128 .f32) (p : Fin 5000) (q : Fin 128) :
    k1_pay1 (F := Ideal) x b (ix2 p q)
      = FloatOps.maximumf (FloatOps.addf (x (ix2 p q)) (b (ix2 0 q))) (FloatOps.ofBits .f32 0x00000000#32) := by
  unfold k1_pay1
  show FloatOps.maximumf (FloatOps.addf (shapeCast S5000x128 x shapeCasts_S5000x128_S5000x128 (ix2 p q)) (broadcastTo S5000x128 (shapeCast S1x128 b shapeCasts_S1x128_S1x128) broadcasts_S1x128_S5000x128 (ix2 p q))) _ = _
  rw [bias_row_apply, shapeCast_self]
  rfl
/-- The second bias stage's body is the same function of its loads. -/
theorem bias_relu3_apply (x : FVec Ideal S5000x128 .f32) (b : FVec Ideal S1x128 .f32) (p : Fin 5000) (q : Fin 128) :
    k3_pay1 (F := Ideal) x b (ix2 p q)
      = FloatOps.maximumf (FloatOps.addf (x (ix2 p q)) (b (ix2 0 q))) (FloatOps.ofBits .f32 0x00000000#32) :=
  bias_relu1_apply x b p q
/-- Bias alone: what the last bias stage stores at entry (p, q) of its block. -/
theorem bias5_apply (x : FVec Ideal S5000x128 .f32) (b : FVec Ideal S1x128 .f32) (p : Fin 5000) (q : Fin 128) :
    k5_pay1 (F := Ideal) x b (ix2 p q) = FloatOps.addf (x (ix2 p q)) (b (ix2 0 q)) := by
  unfold k5_pay1
  show FloatOps.addf (shapeCast S5000x128 x shapeCasts_S5000x128_S5000x128 (ix2 p q)) (broadcastTo S5000x128 (shapeCast S1x128 b shapeCasts_S1x128_S1x128) broadcasts_S1x128_S5000x128 (ix2 p q)) = _
  rw [bias_row_apply, shapeCast_self]

end Cert.KernelIdeal.Blocks

end
-- ==== Proof.Bias1.lean ====
/-
  Launch 1 is the bias stage with the activation tiled over 20 grid points. Point t stages rows 5000 t … 5000 t + 4999 of
  the aggregated messages and the one bias row, and writes back the same rows of the result: entry (r, q) is
  agg(r, q) + bias(0, q), then the maximum with zero. What point t writes back is block t of that whole-array function of the
  arrays as the launch finds them; the 20 row blocks cover the result array, so after the launch the result array IS it.
-/
import proofs.«176715_j7069516169832_1_alg».proof.Proof.Gen.KernelIdeal.Frame
import proofs.«176715_j7069516169832_1_alg».proof.Proof.BiasBlock
import proofs.«176715_j7069516169832_1_alg».proof.Proof.Layer
import Idealize.ShloMosaic.Lib.Pipeline.Value

set_option maxRecDepth 16384

noncomputable section

namespace Cert.KernelIdeal.Bias1

open Cert.KernelIdeal Cert.KernelIdeal.Gen Cert.KernelIdeal.Blocks Cert.Layer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the messages' and the result's block index is the point itself on the row
    axis and 0 on the column axis; the bias row's block is always block (0, 0). -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Every one of the 20 row blocks is some point's. -/
theorem index_onto : ∀ q0 : Fin 20, ∃ t : Fin cfg1.N, win1_2.index t (0 : Fin 2) = q0.val ∧ win1_2.index t (1 : Fin 2) = 0 :=
  (by decide +kernel : ∀ q0 : Fin 20, ∃ t : Fin grid1.N, win1_2.index t (0 : Fin 2) = q0.val ∧ win1_2.index t (1 : Fin 2) = 0)

/-- A block's entry of the stage is the whole-array stage at the block's entry: the messages' block reads the same rows
    as the result's block, and the bias row's one block is the whole row. -/
theorem block_eq (A : FVec Ideal S100000x128 .f32) (B : FVec Ideal S1x128 .f32) (t : Fin cfg1.N) (p : Fin 5000) (q : Fin 128) :
    FloatOps.maximumf (FloatOps.addf (A (((cfg1.win 0).blk t).view.emb (ix2 p q))) (B (((cfg1.win 1).blk t).view.emb (ix2 (0 : Fin 1) q)))) (FloatOps.ofBits .f32 0x00000000#32)
      = biasRelu A B (((cfg1.win 2).blk t).view.emb (ix2 p q)) := by
  obtain ⟨e0, e1, e2, e3, e4, e5⟩ := index_maps t
  unfold biasRelu
  have ha : ((cfg1.win 0).blk t).view.emb (ix2 p q) = ((cfg1.win 2).blk t).view.emb (ix2 p q) := by
    funext a; apply Fin.ext
    match a with
    | ⟨0, _⟩ => show win1_0.index t (0 : Fin 2) * 5000 + 1 * p.val = win1_2.index t (0 : Fin 2) * 5000 + 1 * p.val; omega
    | ⟨1, _⟩ => show win1_0.index t (1 : Fin 2) * 128 + 1 * q.val = win1_2.index t (1 : Fin 2) * 128 + 1 * q.val; omega
  have hb : ((cfg1.win 1).blk t).view.emb (ix2 (0 : Fin 1) q) = rowAt (((cfg1.win 2).blk t).view.emb (ix2 p q)) := by
    funext a; apply Fin.ext
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega
  rw [ha, hb]

/-- What point t writes back is block t of the bias stage of the arrays as the launch finds them. -/
theorem flushed_eq (c : Dev nD) (t : Fin cfg1.N) :
    (dat1 V c).flushed 2 t = ((cfg1.win 2).blk t).view.read (Elt Ideal) (biasRelu (V c main_v49) (V c main_v50)) := by
  show (cfg1.win 2).cut (grid1.coords t) ((dat1 V c).after 2 t) = _
  rw [after1_2]
  unfold out1_2
  rw [View.canon_unit_zero zero_offsets]
  simp only [View.ld_unit_zero (S := S5000x128) zero_offsets, View.ld_unit_zero (S := S1x128) zero_offsets]
  funext j
  obtain ⟨p, q, rfl⟩ : ∃ (p : Fin 5000) (q : Fin 128), j = ix2 p q := ⟨j 0, j 1, eq_ix2 j⟩
  refine (bias_relu1_apply (iblk1 V c 0 t) (iblk1 V c 1 t) p q).trans ?_
  exact block_eq (V c main_v49) (V c main_v50) t p q

/-- An index of the result array is in point t's block iff each coordinate is in the block's range on its axis. -/
theorem mem_blk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v51).slice (win1_2.rect t)).set ↔ _
  rw [View.set_slice_whole, Rect.mem_set_unit]
  exact Iff.rfl

/-- Every index of the result array lies in the block of the point its row falls in. -/
theorem cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht0, ht1⟩ := index_onto ⟨(i 0).val / 5000, by omega⟩
  have q0 : win1_2.index t (0 : Fin 2) = (i 0).val / 5000 := ht0
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- After the launch the result array is the bias stage of the arrays the launch found. -/
theorem final (c : Dev nD) : (dat1 V c).arrAt 2 cfg1.N = biasRelu (V c main_v49) (V c main_v50) :=
  (dat1 V c).arrAt_eq_of_cover 2 (biasRelu (V c main_v49) (V c main_v50)) (fun t _ => flushed_eq V c t) (cover)

end Cert.KernelIdeal.Bias1

end
-- ==== Proof.Bias3.lean ====
/-
  Launch 3 is the bias stage with the activation tiled over 20 grid points. Point t stages rows 5000 t … 5000 t + 4999 of
  the aggregated messages and the one bias row, and writes back the same rows of the result: entry (r, q) is
  agg(r, q) + bias(0, q), then the maximum with zero. What point t writes back is block t of that whole-array function of the
  arrays as the launch finds them; the 20 row blocks cover the result array, so after the launch the result array IS it.
-/
import proofs.«176715_j7069516169832_1_alg».proof.Proof.Gen.KernelIdeal.Frame
import proofs.«176715_j7069516169832_1_alg».proof.Proof.BiasBlock
import proofs.«176715_j7069516169832_1_alg».proof.Proof.Layer
import Idealize.ShloMosaic.Lib.Pipeline.Value

set_option maxRecDepth 16384

noncomputable section

namespace Cert.KernelIdeal.Bias3

open Cert.KernelIdeal Cert.KernelIdeal.Gen Cert.KernelIdeal.Blocks Cert.Layer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the messages' and the result's block index is the point itself on the row
    axis and 0 on the column axis; the bias row's block is always block (0, 0). -/
theorem index_maps : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Every one of the 20 row blocks is some point's. -/
theorem index_onto : ∀ q0 : Fin 20, ∃ t : Fin cfg3.N, win3_2.index t (0 : Fin 2) = q0.val ∧ win3_2.index t (1 : Fin 2) = 0 :=
  (by decide +kernel : ∀ q0 : Fin 20, ∃ t : Fin grid3.N, win3_2.index t (0 : Fin 2) = q0.val ∧ win3_2.index t (1 : Fin 2) = 0)

/-- A block's entry of the stage is the whole-array stage at the block's entry: the messages' block reads the same rows
    as the result's block, and the bias row's one block is the whole row. -/
theorem block_eq (A : FVec Ideal S100000x128 .f32) (B : FVec Ideal S1x128 .f32) (t : Fin cfg3.N) (p : Fin 5000) (q : Fin 128) :
    FloatOps.maximumf (FloatOps.addf (A (((cfg3.win 0).blk t).view.emb (ix2 p q))) (B (((cfg3.win 1).blk t).view.emb (ix2 (0 : Fin 1) q)))) (FloatOps.ofBits .f32 0x00000000#32)
      = biasRelu A B (((cfg3.win 2).blk t).view.emb (ix2 p q)) := by
  obtain ⟨e0, e1, e2, e3, e4, e5⟩ := index_maps t
  unfold biasRelu
  have ha : ((cfg3.win 0).blk t).view.emb (ix2 p q) = ((cfg3.win 2).blk t).view.emb (ix2 p q) := by
    funext a; apply Fin.ext
    match a with
    | ⟨0, _⟩ => show win3_0.index t (0 : Fin 2) * 5000 + 1 * p.val = win3_2.index t (0 : Fin 2) * 5000 + 1 * p.val; omega
    | ⟨1, _⟩ => show win3_0.index t (1 : Fin 2) * 128 + 1 * q.val = win3_2.index t (1 : Fin 2) * 128 + 1 * q.val; omega
  have hb : ((cfg3.win 1).blk t).view.emb (ix2 (0 : Fin 1) q) = rowAt (((cfg3.win 2).blk t).view.emb (ix2 p q)) := by
    funext a; apply Fin.ext
    match a with
    | ⟨0, _⟩ => show win3_1.index t (0 : Fin 2) * 1 + 1 * 0 = 0; omega
    | ⟨1, _⟩ => show win3_1.index t (1 : Fin 2) * 128 + 1 * q.val = win3_2.index t (1 : Fin 2) * 128 + 1 * q.val; omega
  rw [ha, hb]

/-- What point t writes back is block t of the bias stage of the arrays as the launch finds them. -/
theorem flushed_eq (c : Dev nD) (t : Fin cfg3.N) :
    (dat3 V c).flushed 2 t = ((cfg3.win 2).blk t).view.read (Elt Ideal) (biasRelu (V c main_v65) (V c main_v66)) := by
  show (cfg3.win 2).cut (grid3.coords t) ((dat3 V c).after 2 t) = _
  rw [after3_2]
  unfold out3_2
  rw [View.canon_unit_zero zero_offsets]
  simp only [View.ld_unit_zero (S := S5000x128) zero_offsets, View.ld_unit_zero (S := S1x128) zero_offsets]
  funext j
  obtain ⟨p, q, rfl⟩ : ∃ (p : Fin 5000) (q : Fin 128), j = ix2 p q := ⟨j 0, j 1, eq_ix2 j⟩
  refine (bias_relu3_apply (iblk3 V c 0 t) (iblk3 V c 1 t) p q).trans ?_
  exact block_eq (V c main_v65) (V c main_v66) t p q

/-- An index of the result array is in point t's block iff each coordinate is in the block's range on its axis. -/
theorem mem_blk (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v67).slice (win3_2.rect t)).set ↔ _
  rw [View.set_slice_whole, Rect.mem_set_unit]
  exact Iff.rfl

/-- Every index of the result array lies in the block of the point its row falls in. -/
theorem cover (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  obtain ⟨t, ht0, ht1⟩ := index_onto ⟨(i 0).val / 5000, by omega⟩
  have q0 : win3_2.index t (0 : Fin 2) = (i 0).val / 5000 := ht0
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- After the launch the result array is the bias stage of the arrays the launch found. -/
theorem final (c : Dev nD) : (dat3 V c).arrAt 2 cfg3.N = biasRelu (V c main_v65) (V c main_v66) :=
  (dat3 V c).arrAt_eq_of_cover 2 (biasRelu (V c main_v65) (V c main_v66)) (fun t _ => flushed_eq V c t) (cover)

end Cert.KernelIdeal.Bias3

end
-- ==== Proof.Bias5.lean ====
/-
  Launch 5 is the bias stage tiled over 20 grid points. Point t stages rows 5000 t … 5000 t + 4999 of
  the aggregated messages and the one bias row, and writes back the same rows of the result: entry (r, q) is
  agg(r, q) + bias(0, q). What point t writes back is block t of that whole-array function of the
  arrays as the launch finds them; the 20 row blocks cover the result array, so after the launch the result array IS it.
-/
import proofs.«176715_j7069516169832_1_alg».proof.Proof.Gen.KernelIdeal.Frame
import proofs.«176715_j7069516169832_1_alg».proof.Proof.BiasBlock
import proofs.«176715_j7069516169832_1_alg».proof.Proof.Layer
import Idealize.ShloMosaic.Lib.Pipeline.Value

set_option maxRecDepth 16384

noncomputable section

namespace Cert.KernelIdeal.Bias5

open Cert.KernelIdeal Cert.KernelIdeal.Gen Cert.KernelIdeal.Blocks Cert.Layer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the messages' and the result's block index is the point itself on the row
    axis and 0 on the column axis; the bias row's block is always block (0, 0). -/
theorem index_maps : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- Every one of the 20 row blocks is some point's. -/
theorem index_onto : ∀ q0 : Fin 20, ∃ t : Fin cfg5.N, win5_2.index t (0 : Fin 2) = q0.val ∧ win5_2.index t (1 : Fin 2) = 0 :=
  (by decide +kernel : ∀ q0 : Fin 20, ∃ t : Fin grid5.N, win5_2.index t (0 : Fin 2) = q0.val ∧ win5_2.index t (1 : Fin 2) = 0)

/-- A block's entry of the stage is the whole-array stage at the block's entry: the messages' block reads the same rows
    as the result's block, and the bias row's one block is the whole row. -/
theorem block_eq (A : FVec Ideal S100000x128 .f32) (B : FVec Ideal S1x128 .f32) (t : Fin cfg5.N) (p : Fin 5000) (q : Fin 128) :
    FloatOps.addf (A (((cfg5.win 0).blk t).view.emb (ix2 p q))) (B (((cfg5.win 1).blk t).view.emb (ix2 (0 : Fin 1) q)))
      = bias A B (((cfg5.win 2).blk t).view.emb (ix2 p q)) := by
  obtain ⟨e0, e1, e2, e3, e4, e5⟩ := index_maps t
  unfold bias
  have ha : ((cfg5.win 0).blk t).view.emb (ix2 p q) = ((cfg5.win 2).blk t).view.emb (ix2 p q) := by
    funext a; apply Fin.ext
    match a with
    | ⟨0, _⟩ => show win5_0.index t (0 : Fin 2) * 5000 + 1 * p.val = win5_2.index t (0 : Fin 2) * 5000 + 1 * p.val; omega
    | ⟨1, _⟩ => show win5_0.index t (1 : Fin 2) * 128 + 1 * q.val = win5_2.index t (1 : Fin 2) * 128 + 1 * q.val; omega
  have hb : ((cfg5.win 1).blk t).view.emb (ix2 (0 : Fin 1) q) = rowAt (((cfg5.win 2).blk t).view.emb (ix2 p q)) := by
    funext a; apply Fin.ext
    match a with
    | ⟨0, _⟩ => show win5_1.index t (0 : Fin 2) * 1 + 1 * 0 = 0; omega
    | ⟨1, _⟩ => show win5_1.index t (1 : Fin 2) * 128 + 1 * q.val = win5_2.index t (1 : Fin 2) * 128 + 1 * q.val; omega
  rw [ha, hb]

/-- What point t writes back is block t of the bias stage of the arrays as the launch finds them. -/
theorem flushed_eq (c : Dev nD) (t : Fin cfg5.N) :
    (dat5 V c).flushed 2 t = ((cfg5.win 2).blk t).view.read (Elt Ideal) (bias (V c main_v81) (V c main_v82)) := by
  show (cfg5.win 2).cut (grid5.coords t) ((dat5 V c).after 2 t) = _
  rw [after5_2]
  unfold out5_2
  rw [View.canon_unit_zero zero_offsets]
  simp only [View.ld_unit_zero (S := S5000x128) zero_offsets, View.ld_unit_zero (S := S1x128) zero_offsets]
  funext j
  obtain ⟨p, q, rfl⟩ : ∃ (p : Fin 5000) (q : Fin 128), j = ix2 p q := ⟨j 0, j 1, eq_ix2 j⟩
  refine (bias5_apply (iblk5 V c 0 t) (iblk5 V c 1 t) p q).trans ?_
  exact block_eq (V c main_v81) (V c main_v82) t p q

/-- An index of the result array is in point t's block iff each coordinate is in the block's range on its axis. -/
theorem mem_blk (t : Fin cfg5.N) (i : S100000x128.Idx) :
    i ∈ ((cfg5.win 2).blk t).view.set ↔ ∀ a : Fin 2, win5_2.index t a * S5000x128.size a ≤ (i a).val ∧ (i a).val < win5_2.index t a * S5000x128.size a + S5000x128.size a := by
  show i ∈ ((View.whole main_v83).slice (win5_2.rect t)).set ↔ _
  rw [View.set_slice_whole, Rect.mem_set_unit]
  exact Iff.rfl

/-- Every index of the result array lies in the block of the point its row falls in. -/
theorem cover (i : S100000x128.Idx) : ∃ t : Fin cfg5.N, (cfg5.win 2).flush t = true ∧ i ∈ ((cfg5.win 2).blk t).view.set := by
  have hi0 : (i 0).val < 100000 := (i 0).isLt
  have hi1 : (i 1).val < 128 := (i 1).isLt
  obtain ⟨t, ht0, ht1⟩ := index_onto ⟨(i 0).val / 5000, by omega⟩
  have q0 : win5_2.index t (0 : Fin 2) = (i 0).val / 5000 := ht0
  refine ⟨t, flush5_2 t, ?_⟩
  rw [mem_blk]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 128 ≤ (i 1).val ∧ (i 1).val < win5_2.index t (1 : Fin 2) * 128 + 128; omega

/-- After the launch the result array is the bias stage of the arrays the launch found. -/
theorem final (c : Dev nD) : (dat5 V c).arrAt 2 cfg5.N = bias (V c main_v81) (V c main_v82) :=
  (dat5 V c).arrAt_eq_of_cover 2 (bias (V c main_v81) (V c main_v82)) (fun t _ => flushed_eq V c t) (cover)

end Cert.KernelIdeal.Bias5

end
-- ==== Proof.RefBridge.lean ====
/-
  The reference's dense stages are the layer functions. On the host the transform is a dot_general contracting
  the activations' feature axis with the weights' row axis, which at the extended reals is the sum over k of
  x(r, k) * w(k, q); the bias is broadcast from 128 entries to one row and then down the 100000 rows before it is
  added, and the activation is the maximum with a broadcast zero. The kernel instead hands its bias stage the bias
  reshaped to one row: both read entry q of the bias at column q.
-/
import proofs.«176715_j7069516169832_1_alg».proof.Proof.RefRead
import proofs.«176715_j7069516169832_1_alg».proof.Proof.Layer

noncomputable section

open scoped BigOperators

namespace Cert.ReferenceIdeal.Stages

open Cert.ReferenceIdeal Cert.ReferenceIdeal.ReadP Cert.Layer Idealize.ShloMosaic Idealize.ShloMosaic.ValueIdx

/-- The host's dot_general is the transform. -/
theorem transform_eq (x : FVec Ideal Acts .f32) (w : FVec Ideal Wts .f32) :
    transform x w = val_main_v36 (F := Ideal) x w := by
  funext i
  rw [val_main_v36_apply]
  unfold transform
  refine Finset.sum_congr rfl fun k _ => ?_
  have el : lhsAt i k = lidx_main_v36 i k := funext fun a => by
    match a with
    | ⟨0, _⟩ => rfl
    | ⟨1, _⟩ => rfl
  have er : rhsAt i k = ridx_main_v36 i k := funext fun a => by
    match a with
    | ⟨0, _⟩ => rfl
    | ⟨1, _⟩ => rfl
  rw [el, er]

/-- The bias reshaped to one row, read where entry i of the activations reads it, is the bias at i's column. -/
theorem bias_row_apply (b : FVec Ideal S128 .f32) (h : S128.ShapeCasts S1x128) (i : Acts.Idx) :
    shapeCast S1x128 b h (rowAt i) = b (idx_main_v50 (idx_main_v51 i)) := by
  refine shapeCast_apply b h (rowAt i) (idx_main_v50 (idx_main_v51 i)) ?_
  rw [Shape.rowMajor_val_one, Shape.rowMajor_val_two]
  show (i 1).val = 0 * 128 + (i 1).val
  omega

/-- The host's broadcast, add and maximum with zero is the bias stage with the activation. -/
theorem bias_relu_eq (a : FVec Ideal Acts .f32) (b : FVec Ideal S128 .f32) (h : S128.ShapeCasts S1x128) :
    biasRelu a (shapeCast S1x128 b h)
      = maximumf (addf a (val_main_v51 (F := Ideal) b)) (val_main_call1_v0 (F := Ideal)) := by
  funext i
  show FloatOps.maximumf (FloatOps.addf (a i) (shapeCast S1x128 b h (rowAt i))) (FloatOps.ofBits .f32 0x00000000#32)
    = FloatOps.maximumf (FloatOps.addf (a i) (val_main_v51 (F := Ideal) b i)) (val_main_call1_v0 (F := Ideal) i)
  rw [val_main_v51_apply, val_main_v50_apply, val_main_call1_v0_apply, val_main_call1_cst_apply, bias_row_apply]

/-- The host's broadcast and add is the bias stage. -/
theorem bias_eq (a : FVec Ideal Acts .f32) (b : FVec Ideal S128 .f32) (h : S128.ShapeCasts S1x128) :
    bias a (shapeCast S1x128 b h) = addf a (val_main_v51 (F := Ideal) b) := by
  funext i
  show FloatOps.addf (a i) (shapeCast S1x128 b h (rowAt i)) = FloatOps.addf (a i) (val_main_v51 (F := Ideal) b i)
  rw [val_main_v51_apply, val_main_v50_apply, bias_row_apply]

end Cert.ReferenceIdeal.Stages

end
-- ==== Proof.Stretch.lean ====
/-
  The kernel program's stretches of host operations, each read on its own from an arbitrary entry valuation that
  holds the reference's stages (or the arguments) at the few buffers the stretch reads. The first stretch builds the
  source and destination index vectors (the edge list's two rows, each followed by the node numbers 0 … 99999 for the
  self-loops), counts each node's incoming edges by a scatter-add of ones and takes the inverse square root of the
  counts; the second is the outlined "where" that keeps the inverse square root where the count is positive and zero
  elsewhere; the third gathers that vector at both ends of every edge and multiplies: the edge weights. Each later
  stretch gathers the transformed rows by source node, scales them by the edge weights and sums them by destination
  node, and reshapes the layer's bias to one row. These are the reference's own operations, so each buffer holds the
  reference's stage of the same name; no stretch writes a buffer it does not define.
-/
import proofs.«176715_j7069516169832_1_alg».proof.Proof.Gen.KernelIdeal.Frame
import proofs.«176715_j7069516169832_1_alg».proof.Proof.RefRead
import Idealize.ShloMosaic.Lib.StableHlo.Run

set_option maxRecDepth 16384

noncomputable section

namespace Cert.KernelIdeal.Stretch

open Cert.KernelIdeal Cert.KernelIdeal.Gen
open Idealize.ShloMosaic Idealize.ShloMosaic.TcCoe Idealize.SL.Sem Idealize.ShloMosaic.StableHlo
open Cert.ReferenceIdeal.ReadP

variable (Wv : Valuation τ sig (Elt Ideal))
variable (x1 : (⟨Cert.ReferenceIdeal.S2x1600000, .i32⟩ : BufTy).Contents (Elt Ideal))

/-! ## The first stretch: index vectors, degrees, inverse square roots -/

theorem first_src :
    StableHlo.after hostOps0 Wv (Proc.devRef .tc main_v3) = val_main_v3 (F := Ideal) (Wv (Proc.devRef .tc main_arg1)) := by
  after_results_simp
  rfl
theorem first_dst :
    StableHlo.after hostOps0 Wv (Proc.devRef .tc main_v7) = val_main_v7 (F := Ideal) (Wv (Proc.devRef .tc main_arg1)) := by
  after_results_simp
  rfl
set_option maxHeartbeats 1000000 in
theorem first_positive :
    StableHlo.after hostOps0 Wv (Proc.devRef .tc main_v18) = val_main_v18 (F := Ideal) (Wv (Proc.devRef .tc main_arg1)) := by
  after_results_simp
  rfl
set_option maxHeartbeats 1000000 in
theorem first_rsqrt :
    StableHlo.after hostOps0 Wv (Proc.devRef .tc main_v19) = val_main_v19 (F := Ideal) (Wv (Proc.devRef .tc main_arg1)) := by
  after_results_simp
  rfl
theorem first_zero :
    StableHlo.after hostOps0 Wv (Proc.devRef .tc main_cst_3) = val_main_cst_3 (F := Ideal) := by
  after_results_simp
  rfl

/-! ## The second stretch: the outlined where -/

theorem second_dinv (hp : Wv (Proc.devRef .tc main_v18) = val_main_v18 (F := Ideal) x1)
    (hr : Wv (Proc.devRef .tc main_v19) = val_main_v19 (F := Ideal) x1)
    (hz : Wv (Proc.devRef .tc main_cst_3) = val_main_cst_3 (F := Ideal)) :
    StableHlo.after hostOps0_1 Wv (Proc.devRef .tc main_v20) = val_main_v20 (F := Ideal) x1 := by
  after_results
  simp only [TRef.toBuf, TRef.ofBuf, cast_eq]
  rw [hp, hr, hz]
  rfl

/-! ## The third stretch: the edge weights -/

set_option maxHeartbeats 1000000 in
theorem third_nrm (hs : Wv (Proc.devRef .tc main_v3) = val_main_v3 (F := Ideal) x1)
    (hd : Wv (Proc.devRef .tc main_v7) = val_main_v7 (F := Ideal) x1)
    (hv : Wv (Proc.devRef .tc main_v20) = val_main_v20 (F := Ideal) x1) :
    StableHlo.after hostOps0_2 Wv (Proc.devRef .tc main_v35) = val_main_v35 (F := Ideal) x1 := by
  after_results_simp
  rw [hs, hd, hv]
  rfl

/-! ## The stretch before bias launch 1: gather by source, scale, sum by destination; the bias as one row -/

set_option maxHeartbeats 1000000 in
theorem aggregate1 (x0 : (⟨Cert.ReferenceIdeal.S100000x128, .f32⟩ : BufTy).Contents (Elt Ideal)) (x2 : (⟨Cert.ReferenceIdeal.S128x128, .f32⟩ : BufTy).Contents (Elt Ideal))
    (hs : Wv (Proc.devRef .tc main_v3) = val_main_v3 (F := Ideal) x1)
    (hd : Wv (Proc.devRef .tc main_v7) = val_main_v7 (F := Ideal) x1)
    (hn : Wv (Proc.devRef .tc main_v35) = val_main_v35 (F := Ideal) x1)
    (hh : Wv (Proc.devRef .tc main_v36) = val_main_v36 (F := Ideal) x0 x2) :
    StableHlo.after hostOps1 Wv (Proc.devRef .tc main_v49) = val_main_v49 (F := Ideal) x0 x1 x2 := by
  after_results_simp
  rw [hs, hd, hn, hh]
  rfl
theorem bias_row1 (x3 : (⟨Cert.ReferenceIdeal.S128, .f32⟩ : BufTy).Contents (Elt Ideal)) (hb : Wv (Proc.devRef .tc main_arg3) = x3) :
    StableHlo.after hostOps1 Wv (Proc.devRef .tc main_v50) = shapeCast S1x128 x3 shapeCasts_S128_S1x128 := by
  after_results_simp
  rw [hb]
  rfl

/-! ## The stretch before bias launch 2: gather by source, scale, sum by destination; the bias as one row -/

set_option maxHeartbeats 1000000 in
theorem aggregate2 (x0 : (⟨Cert.ReferenceIdeal.S100000x128, .f32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) (x4 : (⟨Cert.ReferenceIdeal.S128x128, .f32⟩ : BufTy).Contents (Elt Ideal))
    (hs : Wv (Proc.devRef .tc main_v3) = val_main_v3 (F := Ideal) x1)
    (hd : Wv (Proc.devRef .tc main_v7) = val_main_v7 (F := Ideal) x1)
    (hn : Wv (Proc.devRef .tc main_v35) = val_main_v35 (F := Ideal) x1)
    (hh : Wv (Proc.devRef .tc main_v52) = val_main_v54 (F := Ideal) x0 x1 x2 x3 x4) :
    StableHlo.after hostOps3 Wv (Proc.devRef .tc main_v65) = val_main_v67 (F := Ideal) x0 x1 x2 x3 x4 := by
  after_results_simp
  rw [hs, hd, hn, hh]
  rfl
theorem bias_row2 (x5 : (⟨Cert.ReferenceIdeal.S128, .f32⟩ : BufTy).Contents (Elt Ideal)) (hb : Wv (Proc.devRef .tc main_arg5) = x5) :
    StableHlo.after hostOps3 Wv (Proc.devRef .tc main_v66) = shapeCast S1x128 x5 shapeCasts_S128_S1x128 := by
  after_results_simp
  rw [hb]
  rfl

/-! ## The stretch before bias launch 3: gather by source, scale, sum by destination; the bias as one row -/

set_option maxHeartbeats 1000000 in
theorem aggregate3 (x0 : (⟨Cert.ReferenceIdeal.S100000x128, .f32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) (x4 : (⟨Cert.ReferenceIdeal.S128x128, .f32⟩ : BufTy).Contents (Elt Ideal)) (x5 : (⟨Cert.ReferenceIdeal.S128, .f32⟩ : BufTy).Contents (Elt Ideal)) (x6 : (⟨Cert.ReferenceIdeal.S128x128, .f32⟩ : BufTy).Contents (Elt Ideal))
    (hs : Wv (Proc.devRef .tc main_v3) = val_main_v3 (F := Ideal) x1)
    (hd : Wv (Proc.devRef .tc main_v7) = val_main_v7 (F := Ideal) x1)
    (hn : Wv (Proc.devRef .tc main_v35) = val_main_v35 (F := Ideal) x1)
    (hh : Wv (Proc.devRef .tc main_v68) = val_main_v72 (F := Ideal) x0 x1 x2 x3 x4 x5 x6) :
    StableHlo.after hostOps5 Wv (Proc.devRef .tc main_v81) = val_main_v85 (F := Ideal) x0 x1 x2 x3 x4 x5 x6 := by
  after_results_simp
  rw [hs, hd, hn, hh]
  rfl
theorem bias_row3 (x7 : (⟨Cert.ReferenceIdeal.S128, .f32⟩ : BufTy).Contents (Elt Ideal)) (hb : Wv (Proc.devRef .tc main_arg7) = x7) :
    StableHlo.after hostOps5 Wv (Proc.devRef .tc main_v82) = shapeCast S1x128 x7 shapeCasts_S128_S1x128 := by
  after_results_simp
  rw [hb]
  rfl

/-! ## What a stretch does not write it keeps -/

theorem kept_hostOps0_main_arg0 : StableHlo.after hostOps0 Wv (Proc.devRef .tc main_arg0) = Wv (Proc.devRef .tc main_arg0) := by
  after_results_simp
theorem kept_hostOps0_main_arg2 : StableHlo.after hostOps0 Wv (Proc.devRef .tc main_arg2) = Wv (Proc.devRef .tc main_arg2) := by
  after_results_simp
theorem kept_hostOps0_main_arg3 : StableHlo.after hostOps0 Wv (Proc.devRef .tc main_arg3) = Wv (Proc.devRef .tc main_arg3) := by
  after_results_simp
theorem kept_hostOps0_main_arg4 : StableHlo.after hostOps0 Wv (Proc.devRef .tc main_arg4) = Wv (Proc.devRef .tc main_arg4) := by
  after_results_simp
theorem kept_hostOps0_main_arg5 : StableHlo.after hostOps0 Wv (Proc.devRef .tc main_arg5) = Wv (Proc.devRef .tc main_arg5) := by
  after_results_simp
theorem kept_hostOps0_main_arg6 : StableHlo.after hostOps0 Wv (Proc.devRef .tc main_arg6) = Wv (Proc.devRef .tc main_arg6) := by
  after_results_simp
theorem kept_hostOps0_main_arg7 : StableHlo.after hostOps0 Wv (Proc.devRef .tc main_arg7) = Wv (Proc.devRef .tc main_arg7) := by
  after_results_simp
theorem kept_hostOps0_1_main_arg0 : StableHlo.after hostOps0_1 Wv (Proc.devRef .tc main_arg0) = Wv (Proc.devRef .tc main_arg0) := by
  after_results_simp
theorem kept_hostOps0_1_main_arg2 : StableHlo.after hostOps0_1 Wv (Proc.devRef .tc main_arg2) = Wv (Proc.devRef .tc main_arg2) := by
  after_results_simp
theorem kept_hostOps0_1_main_arg3 : StableHlo.after hostOps0_1 Wv (Proc.devRef .tc main_arg3) = Wv (Proc.devRef .tc main_arg3) := by
  after_results_simp
theorem kept_hostOps0_1_main_arg4 : StableHlo.after hostOps0_1 Wv (Proc.devRef .tc main_arg4) = Wv (Proc.devRef .tc main_arg4) := by
  after_results_simp
theorem kept_hostOps0_1_main_arg5 : StableHlo.after hostOps0_1 Wv (Proc.devRef .tc main_arg5) = Wv (Proc.devRef .tc main_arg5) := by
  after_results_simp
theorem kept_hostOps0_1_main_arg6 : StableHlo.after hostOps0_1 Wv (Proc.devRef .tc main_arg6) = Wv (Proc.devRef .tc main_arg6) := by
  after_results_simp
theorem kept_hostOps0_1_main_arg7 : StableHlo.after hostOps0_1 Wv (Proc.devRef .tc main_arg7) = Wv (Proc.devRef .tc main_arg7) := by
  after_results_simp
theorem kept_hostOps0_2_main_arg0 : StableHlo.after hostOps0_2 Wv (Proc.devRef .tc main_arg0) = Wv (Proc.devRef .tc main_arg0) := by
  after_results_simp
theorem kept_hostOps0_2_main_arg2 : StableHlo.after hostOps0_2 Wv (Proc.devRef .tc main_arg2) = Wv (Proc.devRef .tc main_arg2) := by
  after_results_simp
theorem kept_hostOps0_2_main_arg3 : StableHlo.after hostOps0_2 Wv (Proc.devRef .tc main_arg3) = Wv (Proc.devRef .tc main_arg3) := by
  after_results_simp
theorem kept_hostOps0_2_main_arg4 : StableHlo.after hostOps0_2 Wv (Proc.devRef .tc main_arg4) = Wv (Proc.devRef .tc main_arg4) := by
  after_results_simp
theorem kept_hostOps0_2_main_arg5 : StableHlo.after hostOps0_2 Wv (Proc.devRef .tc main_arg5) = Wv (Proc.devRef .tc main_arg5) := by
  after_results_simp
theorem kept_hostOps0_2_main_arg6 : StableHlo.after hostOps0_2 Wv (Proc.devRef .tc main_arg6) = Wv (Proc.devRef .tc main_arg6) := by
  after_results_simp
theorem kept_hostOps0_2_main_arg7 : StableHlo.after hostOps0_2 Wv (Proc.devRef .tc main_arg7) = Wv (Proc.devRef .tc main_arg7) := by
  after_results_simp
theorem kept_hostOps0_1_main_v3 : StableHlo.after hostOps0_1 Wv (Proc.devRef .tc main_v3) = Wv (Proc.devRef .tc main_v3) := by
  after_results_simp
theorem kept_hostOps0_1_main_v7 : StableHlo.after hostOps0_1 Wv (Proc.devRef .tc main_v7) = Wv (Proc.devRef .tc main_v7) := by
  after_results_simp
theorem kept_hostOps0_2_main_v3 : StableHlo.after hostOps0_2 Wv (Proc.devRef .tc main_v3) = Wv (Proc.devRef .tc main_v3) := by
  after_results_simp
theorem kept_hostOps0_2_main_v7 : StableHlo.after hostOps0_2 Wv (Proc.devRef .tc main_v7) = Wv (Proc.devRef .tc main_v7) := by
  after_results_simp
theorem kept_hostOps1_main_v3 : StableHlo.after hostOps1 Wv (Proc.devRef .tc main_v3) = Wv (Proc.devRef .tc main_v3) := by
  after_results_simp
theorem kept_hostOps1_main_v7 : StableHlo.after hostOps1 Wv (Proc.devRef .tc main_v7) = Wv (Proc.devRef .tc main_v7) := by
  after_results_simp
theorem kept_hostOps1_main_v35 : StableHlo.after hostOps1 Wv (Proc.devRef .tc main_v35) = Wv (Proc.devRef .tc main_v35) := by
  after_results_simp
theorem kept_hostOps1_main_arg3 : StableHlo.after hostOps1 Wv (Proc.devRef .tc main_arg3) = Wv (Proc.devRef .tc main_arg3) := by
  after_results_simp
theorem kept_hostOps1_main_arg4 : StableHlo.after hostOps1 Wv (Proc.devRef .tc main_arg4) = Wv (Proc.devRef .tc main_arg4) := by
  after_results_simp
theorem kept_hostOps1_main_arg5 : StableHlo.after hostOps1 Wv (Proc.devRef .tc main_arg5) = Wv (Proc.devRef .tc main_arg5) := by
  after_results_simp
theorem kept_hostOps1_main_arg6 : StableHlo.after hostOps1 Wv (Proc.devRef .tc main_arg6) = Wv (Proc.devRef .tc main_arg6) := by
  after_results_simp
theorem kept_hostOps1_main_arg7 : StableHlo.after hostOps1 Wv (Proc.devRef .tc main_arg7) = Wv (Proc.devRef .tc main_arg7) := by
  after_results_simp
theorem kept_hostOps3_main_v3 : StableHlo.after hostOps3 Wv (Proc.devRef .tc main_v3) = Wv (Proc.devRef .tc main_v3) := by
  after_results_simp
theorem kept_hostOps3_main_v7 : StableHlo.after hostOps3 Wv (Proc.devRef .tc main_v7) = Wv (Proc.devRef .tc main_v7) := by
  after_results_simp
theorem kept_hostOps3_main_v35 : StableHlo.after hostOps3 Wv (Proc.devRef .tc main_v35) = Wv (Proc.devRef .tc main_v35) := by
  after_results_simp
theorem kept_hostOps3_main_arg3 : StableHlo.after hostOps3 Wv (Proc.devRef .tc main_arg3) = Wv (Proc.devRef .tc main_arg3) := by
  after_results_simp
theorem kept_hostOps3_main_arg4 : StableHlo.after hostOps3 Wv (Proc.devRef .tc main_arg4) = Wv (Proc.devRef .tc main_arg4) := by
  after_results_simp
theorem kept_hostOps3_main_arg5 : StableHlo.after hostOps3 Wv (Proc.devRef .tc main_arg5) = Wv (Proc.devRef .tc main_arg5) := by
  after_results_simp
theorem kept_hostOps3_main_arg6 : StableHlo.after hostOps3 Wv (Proc.devRef .tc main_arg6) = Wv (Proc.devRef .tc main_arg6) := by
  after_results_simp
theorem kept_hostOps3_main_arg7 : StableHlo.after hostOps3 Wv (Proc.devRef .tc main_arg7) = Wv (Proc.devRef .tc main_arg7) := by
  after_results_simp
theorem kept_hostOps5_main_v3 : StableHlo.after hostOps5 Wv (Proc.devRef .tc main_v3) = Wv (Proc.devRef .tc main_v3) := by
  after_results_simp
theorem kept_hostOps5_main_v7 : StableHlo.after hostOps5 Wv (Proc.devRef .tc main_v7) = Wv (Proc.devRef .tc main_v7) := by
  after_results_simp
theorem kept_hostOps5_main_v35 : StableHlo.after hostOps5 Wv (Proc.devRef .tc main_v35) = Wv (Proc.devRef .tc main_v35) := by
  after_results_simp
theorem kept_hostOps5_main_arg3 : StableHlo.after hostOps5 Wv (Proc.devRef .tc main_arg3) = Wv (Proc.devRef .tc main_arg3) := by
  after_results_simp
theorem kept_hostOps5_main_arg4 : StableHlo.after hostOps5 Wv (Proc.devRef .tc main_arg4) = Wv (Proc.devRef .tc main_arg4) := by
  after_results_simp
theorem kept_hostOps5_main_arg5 : StableHlo.after hostOps5 Wv (Proc.devRef .tc main_arg5) = Wv (Proc.devRef .tc main_arg5) := by
  after_results_simp
theorem kept_hostOps5_main_arg6 : StableHlo.after hostOps5 Wv (Proc.devRef .tc main_arg6) = Wv (Proc.devRef .tc main_arg6) := by
  after_results_simp
theorem kept_hostOps5_main_arg7 : StableHlo.after hostOps5 Wv (Proc.devRef .tc main_arg7) = Wv (Proc.devRef .tc main_arg7) := by
  after_results_simp

end Cert.KernelIdeal.Stretch

end
-- ==== Proof.Walk.lean ====
/-
  The contents of the kernel program's buffers at each segment boundary, read against the reference's stages.
  The first three stretches of host operations compute, from the edge list alone, the source and destination index
  vectors (the edges followed by one self-loop per node) and the edge weights (the product of the two end nodes'
  inverse square-root degrees). No later segment writes these three buffers or an argument, so every later boundary
  still holds them. Each transform launch leaves the whole-array transform of what it found; each stretch of host
  operations between launches gathers the transformed rows by source node, scales them by the edge weights and sums
  them by destination node, the same operations the reference applies; each bias launch leaves the bias stage of what
  it found. Boundary by boundary the kernel program's buffers therefore hold the reference's stages of the same
  arguments, and the result buffer ends holding the reference's result.
-/
import proofs.«176715_j7069516169832_1_alg».proof.Proof.Gen.KernelIdeal.Frame
import proofs.«176715_j7069516169832_1_alg».proof.Proof.Transform0
import proofs.«176715_j7069516169832_1_alg».proof.Proof.Transform2
import proofs.«176715_j7069516169832_1_alg».proof.Proof.Transform4
import proofs.«176715_j7069516169832_1_alg».proof.Proof.Bias1
import proofs.«176715_j7069516169832_1_alg».proof.Proof.Bias3
import proofs.«176715_j7069516169832_1_alg».proof.Proof.Bias5
import proofs.«176715_j7069516169832_1_alg».proof.Proof.RefBridge
import proofs.«176715_j7069516169832_1_alg».proof.Proof.Stretch

set_option maxRecDepth 16384

noncomputable section

namespace Cert.KernelIdeal.Walk

open Cert.KernelIdeal Cert.KernelIdeal.Gen Cert.Layer
open Idealize.ShloMosaic Idealize.ShloMosaic.TcCoe Idealize.SL.Sem Idealize.ShloMosaic.StableHlo
open Cert.ReferenceIdeal.ReadP
open Cert.ReferenceIdeal.Stages

variable (m : (ℓ : Loc nD τ sig) → Buf (Elt Ideal) ℓ) (ρ : Dev nD → PrngReg) (c : Dev nD)

/-- What a boundary's contents hold of the first stretches' results and of the later arguments. -/
structure Carried (W : Valuation τ sig (Elt Ideal)) : Prop where
  src : W (Proc.devRef .tc main_v3) = val_main_v3 (F := Ideal) (m ((c.tc : Thread nD τ).loc main_arg1))
  dst : W (Proc.devRef .tc main_v7) = val_main_v7 (F := Ideal) (m ((c.tc : Thread nD τ).loc main_arg1))
  nrm : W (Proc.devRef .tc main_v35) = val_main_v35 (F := Ideal) (m ((c.tc : Thread nD τ).loc main_arg1))
  b1 : W (Proc.devRef .tc main_arg3) = (m ((c.tc : Thread nD τ).loc main_arg3))
  b2 : W (Proc.devRef .tc main_arg5) = (m ((c.tc : Thread nD τ).loc main_arg5))
  b3 : W (Proc.devRef .tc main_arg7) = (m ((c.tc : Thread nD τ).loc main_arg7))

/-! ## The first launch's entry -/

theorem src1 : W1 m ρ c (Proc.devRef .tc main_v3) = val_main_v3 (F := Ideal) (m ((c.tc : Thread nD τ).loc main_arg1)) := Stretch.first_src (W0 m ρ c)
theorem dst1 : W1 m ρ c (Proc.devRef .tc main_v7) = val_main_v7 (F := Ideal) (m ((c.tc : Thread nD τ).loc main_arg1)) := Stretch.first_dst (W0 m ρ c)
theorem positive1 : W1 m ρ c (Proc.devRef .tc main_v18) = val_main_v18 (F := Ideal) (m ((c.tc : Thread nD τ).loc main_arg1)) := Stretch.first_positive (W0 m ρ c)
theorem rsqrt1 : W1 m ρ c (Proc.devRef .tc main_v19) = val_main_v19 (F := Ideal) (m ((c.tc : Thread nD τ).loc main_arg1)) := Stretch.first_rsqrt (W0 m ρ c)
theorem zero1 : W1 m ρ c (Proc.devRef .tc main_cst_3) = val_main_cst_3 (F := Ideal) := Stretch.first_zero (W0 m ρ c)

theorem src2 : W2 m ρ c (Proc.devRef .tc main_v3) = val_main_v3 (F := Ideal) (m ((c.tc : Thread nD τ).loc main_arg1)) :=
  (Stretch.kept_hostOps0_1_main_v3 (W1 m ρ c)).trans (src1 m ρ c)
theorem dst2 : W2 m ρ c (Proc.devRef .tc main_v7) = val_main_v7 (F := Ideal) (m ((c.tc : Thread nD τ).loc main_arg1)) :=
  (Stretch.kept_hostOps0_1_main_v7 (W1 m ρ c)).trans (dst1 m ρ c)
theorem dinv2 : W2 m ρ c (Proc.devRef .tc main_v20) = val_main_v20 (F := Ideal) (m ((c.tc : Thread nD τ).loc main_arg1)) :=
  Stretch.second_dinv (W1 m ρ c) (m ((c.tc : Thread nD τ).loc main_arg1)) (positive1 m ρ c) (rsqrt1 m ρ c) (zero1 m ρ c)

theorem arg0_3 : W3 m ρ c (Proc.devRef .tc main_arg0) = (m ((c.tc : Thread nD τ).loc main_arg0)) := (Stretch.kept_hostOps0_2_main_arg0 (W2 m ρ c)).trans ((Stretch.kept_hostOps0_1_main_arg0 (W1 m ρ c)).trans ((Stretch.kept_hostOps0_main_arg0 (W0 m ρ c)).trans rfl))
theorem arg2_3 : W3 m ρ c (Proc.devRef .tc main_arg2) = (m ((c.tc : Thread nD τ).loc main_arg2)) := (Stretch.kept_hostOps0_2_main_arg2 (W2 m ρ c)).trans ((Stretch.kept_hostOps0_1_main_arg2 (W1 m ρ c)).trans ((Stretch.kept_hostOps0_main_arg2 (W0 m ρ c)).trans rfl))

/-- At the first launch's entry. -/
theorem carried3 : Carried m c (W3 m ρ c) :=
  ⟨(Stretch.kept_hostOps0_2_main_v3 (W2 m ρ c)).trans (src2 m ρ c),
   (Stretch.kept_hostOps0_2_main_v7 (W2 m ρ c)).trans (dst2 m ρ c),
   Stretch.third_nrm (W2 m ρ c) (m ((c.tc : Thread nD τ).loc main_arg1)) (src2 m ρ c) (dst2 m ρ c) (dinv2 m ρ c),
   (Stretch.kept_hostOps0_2_main_arg3 (W2 m ρ c)).trans ((Stretch.kept_hostOps0_1_main_arg3 (W1 m ρ c)).trans ((Stretch.kept_hostOps0_main_arg3 (W0 m ρ c)).trans rfl)),
   (Stretch.kept_hostOps0_2_main_arg5 (W2 m ρ c)).trans ((Stretch.kept_hostOps0_1_main_arg5 (W1 m ρ c)).trans ((Stretch.kept_hostOps0_main_arg5 (W0 m ρ c)).trans rfl)),
   (Stretch.kept_hostOps0_2_main_arg7 (W2 m ρ c)).trans ((Stretch.kept_hostOps0_1_main_arg7 (W1 m ρ c)).trans ((Stretch.kept_hostOps0_main_arg7 (W0 m ρ c)).trans rfl))⟩

/-! ## The carried buffers, segment by segment -/

theorem carried4 (h : Carried m c (W3 m ρ c)) : Carried m c (W4 m ρ c) :=
  ⟨(W4_of_ne m ρ c main_v3 (by decide)).trans h.src,
   (W4_of_ne m ρ c main_v7 (by decide)).trans h.dst,
   (W4_of_ne m ρ c main_v35 (by decide)).trans h.nrm,
   (W4_of_ne m ρ c main_arg3 (by decide)).trans h.b1,
   (W4_of_ne m ρ c main_arg5 (by decide)).trans h.b2,
   (W4_of_ne m ρ c main_arg7 (by decide)).trans h.b3⟩
theorem carried5 (h : Carried m c (W4 m ρ c)) : Carried m c (W5 m ρ c) :=
  ⟨(Stretch.kept_hostOps1_main_v3 (W4 m ρ c)).trans h.src,
   (Stretch.kept_hostOps1_main_v7 (W4 m ρ c)).trans h.dst,
   (Stretch.kept_hostOps1_main_v35 (W4 m ρ c)).trans h.nrm,
   (Stretch.kept_hostOps1_main_arg3 (W4 m ρ c)).trans h.b1,
   (Stretch.kept_hostOps1_main_arg5 (W4 m ρ c)).trans h.b2,
   (Stretch.kept_hostOps1_main_arg7 (W4 m ρ c)).trans h.b3⟩
theorem carried6 (h : Carried m c (W5 m ρ c)) : Carried m c (W6 m ρ c) :=
  ⟨(W6_of_ne m ρ c main_v3 (by decide)).trans h.src,
   (W6_of_ne m ρ c main_v7 (by decide)).trans h.dst,
   (W6_of_ne m ρ c main_v35 (by decide)).trans h.nrm,
   (W6_of_ne m ρ c main_arg3 (by decide)).trans h.b1,
   (W6_of_ne m ρ c main_arg5 (by decide)).trans h.b2,
   (W6_of_ne m ρ c main_arg7 (by decide)).trans h.b3⟩
theorem carried7 (h : Carried m c (W6 m ρ c)) : Carried m c (W7 m ρ c) :=
  ⟨(W7_of_ne m ρ c main_v3 (by decide)).trans h.src,
   (W7_of_ne m ρ c main_v7 (by decide)).trans h.dst,
   (W7_of_ne m ρ c main_v35 (by decide)).trans h.nrm,
   (W7_of_ne m ρ c main_arg3 (by decide)).trans h.b1,
   (W7_of_ne m ρ c main_arg5 (by decide)).trans h.b2,
   (W7_of_ne m ρ c main_arg7 (by decide)).trans h.b3⟩
theorem carried8 (h : Carried m c (W7 m ρ c)) : Carried m c (W8 m ρ c) :=
  ⟨(Stretch.kept_hostOps3_main_v3 (W7 m ρ c)).trans h.src,
   (Stretch.kept_hostOps3_main_v7 (W7 m ρ c)).trans h.dst,
   (Stretch.kept_hostOps3_main_v35 (W7 m ρ c)).trans h.nrm,
   (Stretch.kept_hostOps3_main_arg3 (W7 m ρ c)).trans h.b1,
   (Stretch.kept_hostOps3_main_arg5 (W7 m ρ c)).trans h.b2,
   (Stretch.kept_hostOps3_main_arg7 (W7 m ρ c)).trans h.b3⟩
theorem carried9 (h : Carried m c (W8 m ρ c)) : Carried m c (W9 m ρ c) :=
  ⟨(W9_of_ne m ρ c main_v3 (by decide)).trans h.src,
   (W9_of_ne m ρ c main_v7 (by decide)).trans h.dst,
   (W9_of_ne m ρ c main_v35 (by decide)).trans h.nrm,
   (W9_of_ne m ρ c main_arg3 (by decide)).trans h.b1,
   (W9_of_ne m ρ c main_arg5 (by decide)).trans h.b2,
   (W9_of_ne m ρ c main_arg7 (by decide)).trans h.b3⟩
theorem carried10 (h : Carried m c (W9 m ρ c)) : Carried m c (W10 m ρ c) :=
  ⟨(W10_of_ne m ρ c main_v3 (by decide)).trans h.src,
   (W10_of_ne m ρ c main_v7 (by decide)).trans h.dst,
   (W10_of_ne m ρ c main_v35 (by decide)).trans h.nrm,
   (W10_of_ne m ρ c main_arg3 (by decide)).trans h.b1,
   (W10_of_ne m ρ c main_arg5 (by decide)).trans h.b2,
   (W10_of_ne m ρ c main_arg7 (by decide)).trans h.b3⟩
theorem carried11 (h : Carried m c (W10 m ρ c)) : Carried m c (W11 m ρ c) :=
  ⟨(Stretch.kept_hostOps5_main_v3 (W10 m ρ c)).trans h.src,
   (Stretch.kept_hostOps5_main_v7 (W10 m ρ c)).trans h.dst,
   (Stretch.kept_hostOps5_main_v35 (W10 m ρ c)).trans h.nrm,
   (Stretch.kept_hostOps5_main_arg3 (W10 m ρ c)).trans h.b1,
   (Stretch.kept_hostOps5_main_arg5 (W10 m ρ c)).trans h.b2,
   (Stretch.kept_hostOps5_main_arg7 (W10 m ρ c)).trans h.b3⟩

theorem at4 : Carried m c (W4 m ρ c) := carried4 m ρ c (carried3 m ρ c)
theorem at6 : Carried m c (W6 m ρ c) := carried6 m ρ c (carried5 m ρ c (at4 m ρ c))
theorem at7 : Carried m c (W7 m ρ c) := carried7 m ρ c (at6 m ρ c)
theorem at9 : Carried m c (W9 m ρ c) := carried9 m ρ c (carried8 m ρ c (at7 m ρ c))
theorem at10 : Carried m c (W10 m ρ c) := carried10 m ρ c (at9 m ρ c)

/-- The second layer's weights reach the second transform launch as launched. -/
theorem weights2 : W6 m ρ c (Proc.devRef .tc main_arg4) = (m ((c.tc : Thread nD τ).loc main_arg4)) :=
  (W6_of_ne m ρ c main_arg4 (by decide)).trans ((Stretch.kept_hostOps1_main_arg4 (W4 m ρ c)).trans
    ((W4_of_ne m ρ c main_arg4 (by decide)).trans ((Stretch.kept_hostOps0_2_main_arg4 (W2 m ρ c)).trans ((Stretch.kept_hostOps0_1_main_arg4 (W1 m ρ c)).trans ((Stretch.kept_hostOps0_main_arg4 (W0 m ρ c)).trans rfl)))))
/-- The third layer's weights reach the third transform launch as launched. -/
theorem weights3 : W9 m ρ c (Proc.devRef .tc main_arg6) = (m ((c.tc : Thread nD τ).loc main_arg6)) :=
  (W9_of_ne m ρ c main_arg6 (by decide)).trans ((Stretch.kept_hostOps3_main_arg6 (W7 m ρ c)).trans
    ((W7_of_ne m ρ c main_arg6 (by decide)).trans ((W6_of_ne m ρ c main_arg6 (by decide)).trans
      ((Stretch.kept_hostOps1_main_arg6 (W4 m ρ c)).trans ((W4_of_ne m ρ c main_arg6 (by decide)).trans ((Stretch.kept_hostOps0_2_main_arg6 (W2 m ρ c)).trans ((Stretch.kept_hostOps0_1_main_arg6 (W1 m ρ c)).trans ((Stretch.kept_hostOps0_main_arg6 (W0 m ρ c)).trans rfl))))))))

/-! ## Layer 1 -/

theorem transformed1 : W4 m ρ c (Proc.devRef .tc main_v36) = val_main_v36 (F := Ideal) (m ((c.tc : Thread nD τ).loc main_arg0)) (m ((c.tc : Thread nD τ).loc main_arg2)) :=
  (W4_arr m ρ c 2).trans ((Transform0.final (V3 m ρ) c).trans
    ((congrArg₂ transform (arg0_3 m ρ c) (arg2_3 m ρ c)).trans (transform_eq _ _)))
theorem aggregated1 : W5 m ρ c (Proc.devRef .tc main_v49) = val_main_v49 (F := Ideal) (m ((c.tc : Thread nD τ).loc main_arg0)) (m ((c.tc : Thread nD τ).loc main_arg1)) (m ((c.tc : Thread nD τ).loc main_arg2)) :=
  Stretch.aggregate1 (W4 m ρ c) (m ((c.tc : Thread nD τ).loc main_arg1)) (m ((c.tc : Thread nD τ).loc main_arg0)) (m ((c.tc : Thread nD τ).loc main_arg2)) (at4 m ρ c).src (at4 m ρ c).dst (at4 m ρ c).nrm (transformed1 m ρ c)
theorem biasrow1 : W5 m ρ c (Proc.devRef .tc main_v50) = shapeCast S1x128 (m ((c.tc : Thread nD τ).loc main_arg3)) shapeCasts_S128_S1x128 :=
  Stretch.bias_row1 (W4 m ρ c) (m ((c.tc : Thread nD τ).loc main_arg3)) (at4 m ρ c).b1
theorem activated1 : W6 m ρ c (Proc.devRef .tc main_v51) = val_main_v53 (F := Ideal) (m ((c.tc : Thread nD τ).loc main_arg0)) (m ((c.tc : Thread nD τ).loc main_arg1)) (m ((c.tc : Thread nD τ).loc main_arg2)) (m ((c.tc : Thread nD τ).loc main_arg3)) :=
  (W6_arr m ρ c 2).trans ((Bias1.final (V5 m ρ) c).trans
    ((congrArg₂ biasRelu (aggregated1 m ρ c) (biasrow1 m ρ c)).trans (bias_relu_eq _ _ _)))

/-! ## Layer 2 -/

theorem transformed2 : W7 m ρ c (Proc.devRef .tc main_v52) = val_main_v54 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (W7_arr m ρ c 2).trans ((Transform2.final (V6 m ρ) c).trans
    ((congrArg₂ transform (activated1 m ρ c) (weights2 m ρ c)).trans (transform_eq _ _)))
theorem aggregated2 : W8 m ρ c (Proc.devRef .tc main_v65) = val_main_v67 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  Stretch.aggregate2 (W7 m ρ c) (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4)) (at7 m ρ c).src (at7 m ρ c).dst (at7 m ρ c).nrm (transformed2 m ρ c)
theorem biasrow2 : W8 m ρ c (Proc.devRef .tc main_v66) = shapeCast S1x128 (m ((c.tc : Thread nD τ).loc main_arg5)) shapeCasts_S128_S1x128 :=
  Stretch.bias_row2 (W7 m ρ c) (m ((c.tc : Thread nD τ).loc main_arg5)) (at7 m ρ c).b2
theorem activated2 : W9 m ρ c (Proc.devRef .tc main_v67) = val_main_v71 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (W9_arr m ρ c 2).trans ((Bias3.final (V8 m ρ) c).trans
    ((congrArg₂ biasRelu (aggregated2 m ρ c) (biasrow2 m ρ c)).trans (bias_relu_eq _ _ _)))

/-! ## Layer 3 -/

theorem transformed3 : W10 m ρ c (Proc.devRef .tc main_v68) = val_main_v72 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (W10_arr m ρ c 2).trans ((Transform4.final (V9 m ρ) c).trans
    ((congrArg₂ transform (activated2 m ρ c) (weights3 m ρ c)).trans (transform_eq _ _)))
theorem aggregated3 : W11 m ρ c (Proc.devRef .tc main_v81) = val_main_v85 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  Stretch.aggregate3 (W10 m ρ c) (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (at10 m ρ c).src (at10 m ρ c).dst (at10 m ρ c).nrm (transformed3 m ρ c)
theorem biasrow3 : W11 m ρ c (Proc.devRef .tc main_v82) = shapeCast S1x128 (m ((c.tc : Thread nD τ).loc main_arg7)) shapeCasts_S128_S1x128 :=
  Stretch.bias_row3 (W10 m ρ c) (m ((c.tc : Thread nD τ).loc main_arg7)) (at10 m ρ c).b3

/-- The result buffer at the last boundary is the reference's result of the same arguments. -/
theorem result : W12 m ρ c (Proc.devRef .tc main_v83) = val_main_v88 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (W12_arr m ρ c 2).trans ((Bias5.final (V11 m ρ) c).trans
    ((congrArg₂ bias (aggregated3 m ρ c) (biasrow3 m ρ c)).trans (bias_eq _ _ _)))

end Cert.KernelIdeal.Walk

end
-- ==== Proof.lean ====
/-
  A three-layer graph convolution over 100000 nodes and 1.6 million edges (plus one self-loop per node), 128 features:
  each layer transforms the node features by a 128 x 128 matrix, gathers the transformed rows at every edge's source,
  scales each by the edge's weight (the product of its two end nodes' inverse square-root degrees), sums the scaled
  rows at the edge's destination, adds a bias and, in the two inner layers, takes the maximum with zero.
  The kernel program runs the transform and the bias stage of every layer as tiled launches (20 row blocks of 5000
  rows; the transform multiplies in a narrower float format into a zero accumulator) and everything else as host
  operations; the reference is host operations throughout. Over the extended reals the narrower format is the
  identity, a block product into a zero accumulator is the plain sum over the contracted axis, so a transform launch
  leaves exactly the host's dot_general, and a bias launch leaves exactly the host's broadcast, add and maximum.
  The index vectors, the degrees, the edge weights, the gathers and the scatter-adds are the same host operations in
  both programs and are never opened: boundary by boundary the kernel program's buffers hold the reference's stages of
  the same arguments (Walk), so the two results are equal. No law of the extended reals beyond 0 + s = s is used, and
  the finiteness of the inputs is not needed. The ideal pass rewrote nothing, so the idealization is the program's
  own text.
-/
import proofs.«176715_j7069516169832_1_alg».proof.Defs
import proofs.«176715_j7069516169832_1_alg».proof.Proof.Gen.Kernel
import proofs.«176715_j7069516169832_1_alg».proof.Proof.Gen.Kernel.Skeleton
import proofs.«176715_j7069516169832_1_alg».proof.Proof.Gen.Kernel.Launch
import proofs.«176715_j7069516169832_1_alg».proof.Proof.Gen.Kernel.Points
import proofs.«176715_j7069516169832_1_alg».proof.Proof.Gen.Kernel.Frame
import proofs.«176715_j7069516169832_1_alg».proof.Proof.Gen.KernelIdeal
import proofs.«176715_j7069516169832_1_alg».proof.Proof.Gen.KernelIdeal.Skeleton
import proofs.«176715_j7069516169832_1_alg».proof.Proof.Gen.KernelIdeal.Launch
import proofs.«176715_j7069516169832_1_alg».proof.Proof.Gen.KernelIdeal.Points
import proofs.«176715_j7069516169832_1_alg».proof.Proof.Gen.KernelIdeal.Frame
import proofs.«176715_j7069516169832_1_alg».proof.Proof.Gen.ReferenceIdeal
import proofs.«176715_j7069516169832_1_alg».proof.Proof.Gen.Pre_finite_inputs
import proofs.«176715_j7069516169832_1_alg».proof.Proof.KRun
import proofs.«176715_j7069516169832_1_alg».proof.Proof.Walk
import Idealize.ShloMosaic.Adequacy
import Idealize.ShloMosaic.Init

noncomputable section

namespace Cert.Proof

open Idealize.ShloMosaic Idealize.SL.Sem

/-- The kernel program as printed runs to completion and leaves its arguments alone. -/
theorem frame_kernel : Cert.frame_Kernel := fun m ρ _ => Cert.Kernel.Gen.frame m ρ
/-- So does its reading over the extended reals. -/
theorem frame_kernel_ideal : Cert.frame_KernelIdeal := fun m ρ _ => Cert.KernelIdeal.Gen.frame m ρ
/-- The reference's run with the result dropped. -/
theorem frame_reference_ideal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- Both programs end at the reference's last stage of the kernel program's arguments: the kernel program by the walk
    through its segment boundaries, the reference by its own run from a memory that agrees on the arguments. -/
theorem algebraic : Cert.algebraic_KernelIdeal_ReferenceIdeal := by
  intro m ρ m' ρ' _ hagree
  refine ⟨fun c => Cert.ReferenceIdeal.ReadP.val_main_v88 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Walk.result m ρ c), (h c).2⟩)
      (Cert.KernelIdeal.Whole.run_result m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v88_eq, (hagree c).1, (hagree c).2.1, (hagree c).2.2.1, (hagree c).2.2.2.1, (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
